-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16x128 .f32) (main_arg10 : FVec F S16 .f32) (main_v33 : IVec S_ 1) : IVec S_ 1 :=
  let main_v34 : FVec F S16x128 .f32 := Host.absf main_arg9
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128x256 .f32) (main_arg7 : FVec F S128 .f32) (main_arg8 : FVec F S128x256 .f32) (main_arg9 : FVec F S16x128 .f32) (main_arg10 : FVec F S16 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_v33

def fn {F : FTy → Type} [FloatOps F] (main_arg0 : FVec F S50000x1024 .f32) (main_arg1 : IVec S2x250000 32) (main_arg2 : IVec S50000 32) (main_arg3 : FVec F S256x1024 .f32) (main_arg4 : FVec F S256 .f32) (main_arg5 : FVec F S256x1024 .f32) (main_arg6 : FVec F S128x256 .f32) (main_arg7 : FVec F S128 .f32) (main_arg8 : FVec F S128x256 .f32) (main_arg9 : FVec F S16x128 .f32) (main_arg10 : FVec F S16 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S256x1024 .f32 := Host.absf main_arg3
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_arg9 main_arg10 main_v13 main_v16
-- ==== Kernel.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S50000x1 : Shape := ⟨2, ![50000, 1]⟩
abbrev S1024x256 : Shape := ⟨2, ![1024, 256]⟩
abbrev S50000x256 : Shape := ⟨2, ![50000, 256]⟩
abbrev S2000x1024 : Shape := ⟨2, ![2000, 1024]⟩
abbrev S2000x256 : Shape := ⟨2, ![2000, 256]⟩
abbrev S250000x256 : Shape := ⟨2, ![250000, 256]⟩
abbrev S1x256 : Shape := ⟨2, ![1, 256]⟩
abbrev S2000x1 : Shape := ⟨2, ![2000, 1]⟩
abbrev S256x128 : Shape := ⟨2, ![256, 128]⟩
abbrev S50000x128 : Shape := ⟨2, ![50000, 128]⟩
abbrev S2000x128 : Shape := ⟨2, ![2000, 128]⟩
abbrev S250000x128 : Shape := ⟨2, ![250000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x16 : Shape := ⟨2, ![128, 16]⟩
abbrev S64x16 : Shape := ⟨2, ![64, 16]⟩
abbrev S1x16 : Shape := ⟨2, ![1, 16]⟩

abbrev nBuf : Space → Nat
  | .hbm => 91
  | .vmem => 34
  | .smem => 0
  | _ => 0

abbrev bufTy : (tb : Table) → Fin (tcTables nBuf tb) → BufTy
  | .hbm, ⟨0, _⟩ => ⟨S50000x1024, .f32⟩
  | .hbm, ⟨1, _⟩ => ⟨S2x250000, .i32⟩
  | .hbm, ⟨2, _⟩ => ⟨S50000, .i32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S16x128, .f32⟩
  | .hbm, ⟨10, _⟩ => ⟨S16, .f32⟩
  | .hbm, ⟨11, _⟩ => ⟨S1x250000, .i32⟩
  | .hbm, ⟨12, _⟩ => ⟨S250000, .i32⟩
  | .hbm, ⟨13, _⟩ => ⟨S1x250000, .i32⟩
  | .hbm, ⟨14, _⟩ => ⟨S250000, .i32⟩
  | .hbm, ⟨15, _⟩ => ⟨S_, .f32⟩
  | .hbm, ⟨16, _⟩ => ⟨S250000, .f32⟩
  | .hbm, ⟨17, _⟩ => ⟨S_, .f32⟩
  | .hbm, ⟨18, _⟩ => ⟨S50000, .f32⟩
  | .hbm, ⟨19, _⟩ => ⟨S250000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1024x256, .f32⟩
  | .hbm, ⟨29, _⟩ => ⟨S1024x256, .bf16⟩
  | .hbm, ⟨30, _⟩ => ⟨S1024x256, .f32⟩
  | .hbm, ⟨31, _⟩ => ⟨S1024x256, .bf16⟩
  | .hbm, ⟨32, _⟩ => ⟨S50000x256, .f32⟩
  | .hbm, ⟨33, _⟩ => ⟨S50000x256, .f32⟩
  | .hbm, ⟨34, _⟩ => ⟨S_, .i32⟩
  | .hbm, ⟨35, _⟩ => ⟨S250000, .i32⟩
  | .hbm, ⟨36, _⟩ => ⟨S250000, .i1⟩
  | .hbm, ⟨37, _⟩ => ⟨S_, .i32⟩
  | .hbm, ⟨38, _⟩ => ⟨S250000, .i32⟩
  | .hbm, ⟨39, _⟩ => ⟨S250000, .i32⟩
  | .hbm, ⟨40, _⟩ => ⟨S250000, .i32⟩
  | .hbm, ⟨41, _⟩ => ⟨S250000x1, .i32⟩
  | .hbm, ⟨42, _⟩ => ⟨S250000x256, .f32⟩
  | .hbm, ⟨43, _⟩ => ⟨S_, .f32⟩
  | .hbm, ⟨44, _⟩ => ⟨S50000x256, .f32⟩
  | .hbm, ⟨45, _⟩ => ⟨S250000x1, .i32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S256x128, .f32⟩
  | .hbm, ⟨50, _⟩ => ⟨S256x128, .bf16⟩
  | .hbm, ⟨51, _⟩ => ⟨S256x128, .f32⟩
  | .hbm, ⟨52, _⟩ => ⟨S256x128, .bf16⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S250000, .i32⟩
  | .hbm, ⟨57, _⟩ => ⟨S250000, .i1⟩
  | .hbm, ⟨58, _⟩ => ⟨S_, .i32⟩
  | .hbm, ⟨59, _⟩ => ⟨S250000, .i32⟩
  | .hbm, ⟨60, _⟩ => ⟨S250000, .i32⟩
  | .hbm, ⟨61, _⟩ => ⟨S250000, .i32⟩
  | .hbm, ⟨62, _⟩ => ⟨S250000x1, .i32⟩
  | .hbm, ⟨63, _⟩ => ⟨S250000x128, .f32⟩
  | .hbm, ⟨64, _⟩ => ⟨S_, .f32⟩
  | .hbm, ⟨65, _⟩ => ⟨S50000x128, .f32⟩
  | .hbm, ⟨66, _⟩ => ⟨S250000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .f32⟩
  | .hbm, ⟨71, _⟩ => ⟨S64x128, .f32⟩
  | .hbm, ⟨72, _⟩ => ⟨S50000x1, .i32⟩
  | .hbm, ⟨73, _⟩ => ⟨S64x128, .f32⟩
  | .hbm, ⟨74, _⟩ => ⟨S_, .f32⟩
  | .hbm, ⟨75, _⟩ => ⟨S50000, .f32⟩
  | .hbm, ⟨76, _⟩ => ⟨S_, .f32⟩
  | .hbm, ⟨77, _⟩ => ⟨S64, .f32⟩
  | .hbm, ⟨78, _⟩ => ⟨S50000x1, .i32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64x1, .f32⟩
  | .hbm, ⟨84, _⟩ => ⟨S64x128, .f32⟩
  | .hbm, ⟨85, _⟩ => ⟨S64x128, .f32⟩
  | .hbm, ⟨86, _⟩ => ⟨S128x16, .f32⟩
  | .hbm, ⟨87, _⟩ => ⟨S64x16, .f32⟩
  | .hbm, ⟨88, _⟩ => ⟨S1x16, .f32⟩
  | .hbm, ⟨89, _⟩ => ⟨S64x16, .f32⟩
  | .hbm, ⟨90, _⟩ => ⟨S64x16, .f32⟩
  | .local _ .vmem, ⟨0, _⟩ => ⟨S2000x1024, .f32⟩
  | .local _ .vmem, ⟨1, _⟩ => ⟨S2000x1024, .f32⟩
  | .local _ .vmem, ⟨2, _⟩ => ⟨S1024x256, .bf16⟩
  | .local _ .vmem, ⟨3, _⟩ => ⟨S1024x256, .bf16⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x128, .bf16⟩
  | .local _ .vmem, ⟨20, _⟩ => ⟨S256x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  shapeCasts_S50000_S50000x1 : S50000.ShapeCasts S50000x1
  transposes_S256x1024_S1024x256_1_0 : S256x1024.Transposes [1, 0] S1024x256
  bitsLt_bf16_f32 : FTy.bits .bf16 < FTy.bits .f32
  inb_S2000x1024_S2000x1024_0_0 : ∀ a, (![0, 0] : Fin 2 → Nat) a + S2000x1024.size a ≤ S2000x1024.size a
  h_S2000x1024 : 0 < S2000x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S128x256_S256x128_1_0 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S16x128_S128x16_1_0 : S16x128.Transposes [1, 0] S128x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S250000x1_S250000_n_0_0_1_wf : ScatterDims.WF S50000 S250000x1 S250000 [] [0] [0] 1
  dot_S2000x1024_S1024x256_S2000x256_1_0_0_1_n_n_wf : DotDims.WF S2000x1024 S1024x256 S2000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S2000x256_S256x128_S2000x128_1_0_0_1_n_n_wf : DotDims.WF S2000x256 S256x128 S2000x128 [1] [0] [0] [1] [] []
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x1024 : Shape := ⟨2, ![250000, 1024]⟩
abbrev S50000x1 : Shape := ⟨2, ![50000, 1]⟩
abbrev S1024x256 : Shape := ⟨2, ![1024, 256]⟩
abbrev S50000x256 : Shape := ⟨2, ![50000, 256]⟩
abbrev S1x256 : Shape := ⟨2, ![1, 256]⟩
abbrev S250000x256 : Shape := ⟨2, ![250000, 256]⟩
abbrev S256x128 : Shape := ⟨2, ![256, 128]⟩
abbrev S50000x128 : Shape := ⟨2, ![50000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x16 : Shape := ⟨2, ![128, 16]⟩
abbrev S64x16 : Shape := ⟨2, ![64, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x250000, .i32⟩
  | .hbm, ⟨2, _⟩ => ⟨S50000, .i32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S16x128, .f32⟩
  | .hbm, ⟨10, _⟩ => ⟨S16, .f32⟩
  | .hbm, ⟨11, _⟩ => ⟨S1x250000, .i32⟩
  | .hbm, ⟨12, _⟩ => ⟨S250000, .i32⟩
  | .hbm, ⟨13, _⟩ => ⟨S1x250000, .i32⟩
  | .hbm, ⟨14, _⟩ => ⟨S250000, .i32⟩
  | .hbm, ⟨15, _⟩ => ⟨S_, .i32⟩
  | .hbm, ⟨16, _⟩ => ⟨S250000, .i32⟩
  | .hbm, ⟨17, _⟩ => ⟨S250000, .i1⟩
  | .hbm, ⟨18, _⟩ => ⟨S_, .i32⟩
  | .hbm, ⟨19, _⟩ => ⟨S250000, .i32⟩
  | .hbm, ⟨20, _⟩ => ⟨S250000, .i32⟩
  | .hbm, ⟨21, _⟩ => ⟨S250000, .i32⟩
  | .hbm, ⟨22, _⟩ => ⟨S250000x1, .i32⟩
  | .hbm, ⟨23, _⟩ => ⟨S250000x1024, .f32⟩
  | .hbm, ⟨24, _⟩ => ⟨S_, .f32⟩
  | .hbm, ⟨25, _⟩ => ⟨S50000x1024, .f32⟩
  | .hbm, ⟨26, _⟩ => ⟨S250000x1, .i32⟩
  | .hbm, ⟨27, _⟩ => ⟨S50000x1024, .f32⟩
  | .hbm, ⟨28, _⟩ => ⟨S_, .f32⟩
  | .hbm, ⟨29, _⟩ => ⟨S250000, .f32⟩
  | .hbm, ⟨30, _⟩ => ⟨S_, .f32⟩
  | .hbm, ⟨31, _⟩ => ⟨S50000, .f32⟩
  | .hbm, ⟨32, _⟩ => ⟨S250000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x1024, .f32⟩
  | .hbm, ⟨39, _⟩ => ⟨S50000x1024, .f32⟩
  | .hbm, ⟨40, _⟩ => ⟨S1024x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S1024x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S250000, .i32⟩
  | .hbm, ⟨53, _⟩ => ⟨S250000, .i1⟩
  | .hbm, ⟨54, _⟩ => ⟨S_, .i32⟩
  | .hbm, ⟨55, _⟩ => ⟨S250000, .i32⟩
  | .hbm, ⟨56, _⟩ => ⟨S250000, .i32⟩
  | .hbm, ⟨57, _⟩ => ⟨S250000, .i32⟩
  | .hbm, ⟨58, _⟩ => ⟨S250000x1, .i32⟩
  | .hbm, ⟨59, _⟩ => ⟨S250000x256, .f32⟩
  | .hbm, ⟨60, _⟩ => ⟨S_, .f32⟩
  | .hbm, ⟨61, _⟩ => ⟨S50000x256, .f32⟩
  | .hbm, ⟨62, _⟩ => ⟨S250000x1, .i32⟩
  | .hbm, ⟨63, _⟩ => ⟨S50000x256, .f32⟩
  | .hbm, ⟨64, _⟩ => ⟨S_, .f32⟩
  | .hbm, ⟨65, _⟩ => ⟨S250000, .f32⟩
  | .hbm, ⟨66, _⟩ => ⟨S_, .f32⟩
  | .hbm, ⟨67, _⟩ => ⟨S50000, .f32⟩
  | .hbm, ⟨68, _⟩ => ⟨S250000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S256x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S256x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S64x128, .f32⟩
  | .hbm, ⟨89, _⟩ => ⟨S50000x1, .i32⟩
  | .hbm, ⟨90, _⟩ => ⟨S64x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S64, .f32⟩
  | .hbm, ⟨95, _⟩ => ⟨S50000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S128x16, .f32⟩
  | .hbm, ⟨104, _⟩ => ⟨S64x16, .f32⟩
  | .hbm, ⟨105, _⟩ => ⟨S1x16, .f32⟩
  | .hbm, ⟨106, _⟩ => ⟨S64x16, .f32⟩
  | .hbm, ⟨107, _⟩ => ⟨S64x16, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S50000x1024 : S_.BroadcastsInDim S50000x1024 (![] : Fin 0 → Fin S50000x1024.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x1024_0_1 : S50000x1.BroadcastsInDim S50000x1024 (![0, 1] : Fin 2 → Fin S50000x1024.rank)
  transposes_S256x1024_S1024x256_1_0 : S256x1024.Transposes [1, 0] S1024x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S16x128_S128x16_1_0 : S16x128.Transposes [1, 0] S128x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  scatter_S50000_S250000x1_S250000_n_0_0_1_wf : ScatterDims.WF S50000 S250000x1 S250000 [] [0] [0] 1
  dot_S50000x1024_S1024x256_S50000x256_1_0_0_1_n_n_wf : DotDims.WF S50000x1024 S1024x256 S50000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.KRun.lean ====
/-
  The idealized kernel's run with its result named: every weakly fair execution terminates, the result buffer ends
  holding what the last stretch of host operations leaves there (the fold of the program's segments from the launch
  memory, read at the result), and the argument arrays end unchanged.
-/
import proofs.«162258_j81879256531434_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, the last boundary's contents read at the result and at every argument. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Hand

end
-- ==== Proof.KWalk.lean ====
/-
  Which buffers each segment of the kernel program leaves alone.

  The program is five stretches of host operations with four kernel launches between them. A stretch changes only the
  buffers its operations write; a launch changes only its own operand and result arrays. So a buffer written early and
  read late is found, at the later boundary, holding what it held at the earlier one.
-/
import proofs.«162258_j81879256531434_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the first stretch writes. -/
abbrev wr0 : List (Ref sig .tc) := [main_v0, main_v1, main_v2, main_v3, main_cst, main_v4, main_cst_0, main_v5, main_v6, main_v7,
  main_cst_1, main_v8, main_v9, main_cst_2, main_v10, main_v11, main_v12, main_v13, main_v14, main_v15, main_v16]
/-- The buffers the second stretch writes. -/
abbrev wr1 : List (Ref sig .tc) := [main_c, main_v18, main_v19, main_c_3, main_v20, main_v21, main_v22, main_v23, main_v24,
  main_cst_4, main_v25, main_v26, main_v27, main_v28]
/-- The buffers the third stretch writes. -/
abbrev wr2 : List (Ref sig .tc) := [main_v30, main_v31, main_v32, main_v33]
/-- The buffers the fourth stretch writes. -/
abbrev wr3 : List (Ref sig .tc) := [main_c_5, main_v35, main_v36, main_c_6, main_v37, main_v38, main_v39, main_v40, main_v41,
  main_cst_7, main_v42, main_v43, main_v44, main_v45]

theorem writes0 : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes1 : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes2 : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem writes3 : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the first stretch does not write holds its launch contents at the first launch. -/
theorem W1_of (c : Dev nD) (r : Ref sig .tc) (h : r ∉ wr0) : W1 m ρ c (Proc.devRef .tc r) = m ((c : Thread nD τ).loc r) :=
  (StableHlo.after_of_writes_sub hostOps0 _ writes0 h).trans rfl
/-- A buffer the second stretch does not write is as the first launch left it. -/
theorem W3_of (c : Dev nD) (r : Ref sig .tc) (h : r ∉ wr1) : W3 m ρ c (Proc.devRef .tc r) = W2 m ρ c (Proc.devRef .tc r) :=
  StableHlo.after_of_writes_sub hostOps1 _ writes1 h
/-- A buffer the third stretch does not write is as the second launch left it. -/
theorem W5_of (c : Dev nD) (r : Ref sig .tc) (h : r ∉ wr2) : W5 m ρ c (Proc.devRef .tc r) = W4 m ρ c (Proc.devRef .tc r) :=
  StableHlo.after_of_writes_sub hostOps2 _ writes2 h
/-- A buffer the fourth stretch does not write is as the third launch left it. -/
theorem W7_of (c : Dev nD) (r : Ref sig .tc) (h : r ∉ wr3) : W7 m ρ c (Proc.devRef .tc r) = W6 m ρ c (Proc.devRef .tc r) :=
  StableHlo.after_of_writes_sub hostOps3 _ writes3 h

end Cert.KernelIdeal.Hand

end
-- ==== Proof.LibGatherRows.lean ====
/-
  `x[idx]` along axis 0, with one start index per result row, read at an index.

  jnp's `x[idx]` for an integer vector `idx : [R]` lowers to a gather whose start indices are the column `[R, 1]`:
  of a matrix `x : [N, C]` it takes whole rows (offset axis 1, axis 0 collapsed, slice sizes `[1, C]`), of a vector
  `x : [N]` single entries (no offset axis, slice size `[1]`). Either way result row `r` comes from the operand's row
  `srcRow idx r`: the start index `idx[r, 0]` read as a signed integer and clamped into `[0, N − 1]`, as a gather clamps
  every start index. Both forms use THE SAME source row, which is what lets a row statistic be taken before or after
  the gather.
-/
import Idealize.ShloMosaic.Lib.ValueIdx
import Idealize.ShloMosaic.PureOps.ShapeOps

namespace Idealize.ShloMosaic.GatherRows

open Idealize.ShloMosaic Idealize.ShloMosaic.ValueIdx

variable {α : Type}

/-- The operand row that result row `r` reads: the start index `idx[r, 0]`, signed, clamped into `[0, N − 1]`. -/
def srcRow {N R w : Nat} (hN : 0 < N) (idx : IVec ⟨2, ![R, 1]⟩ w) (r : Fin R) : Fin N :=
  ⟨min (idx (ix2 r (0 : Fin 1))).toInt.toNat (N - 1), by omega⟩

/-- The dimension numbers of a gather of whole rows of an `[N, C]` operand at start indices `[R, 1]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[R, 1]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- ROWS, READ AT `(r, k)`: the operand's entry `(srcRow idx r, k)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 (srcRow hN idx r) k) := by
  unfold Host.gather
  congr 1
  funext a
  refine Fin.ext ?_
  have hsi : (rowsDims N C R wf).siIdx (ix2 r k) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl), hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from (by decide : (1 : Fin 2) ∉ ([0] : List (Fin 2))))]
    simp only [Nat.add_zero, Nat.zero_add]
    rfl

/-- ENTRIES, READ AT `r`: the operand's entry `srcRow idx r`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r) = x (ix1 (srcRow hN idx r)) := by
  unfold Host.gather
  congr 1
  funext a
  obtain rfl : a = 0 := Subsingleton.elim _ _
  refine Fin.ext ?_
  show (entriesDims N R wf).start (ix1 r) idx 0 + (entriesDims N R wf).batchCoord (ix1 r) 0
    + (entriesDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 r) ⟨List.idxOf (0 : Fin 1) (entriesDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows
-- ==== Proof.Shared.lean ====
/-
  What the two programs share: the edge list read as a graph, and the pooling head.

  Edge e brings the row sRow e (its source index, with a negative index counted from the end, clamped into the node
  range) and lands on node i when its target index, read as a signed integer, is i (hit). Dg i is the number of edges
  landing on i, or one when there is none. The head takes the node embeddings, averages them per graph, and applies
  the classifier; both programs compute it by the same operations.
-/
import proofs.«162258_j81879256531434_2_alg».proof.Proof.Gen.ReferenceIdeal.Read
import proofs.«162258_j81879256531434_2_alg».proof.Proof.LibGatherRows

noncomputable section

namespace Cert.Shared

open Cert.ReferenceIdeal Cert.ReferenceIdeal.Read Idealize.ShloMosaic Idealize.ShloMosaic.ValueIdx

/-- The node whose row edge e brings. -/
def sRow (a1 : (⟨S2x250000, .i32⟩ : BufTy).Contents (Elt Ideal)) (e : Fin 250000) : Fin 50000 :=
  GatherRows.srcRow (N := 50000) (by norm_num) (val_main_v9 (F := Ideal) a1 : IVec ⟨2, ![250000, 1]⟩ 32) e

/-- Edge e lands on node i. -/
def hit (a1 : (⟨S2x250000, .i32⟩ : BufTy).Contents (Elt Ideal)) (i : Fin 50000) (e : Fin 250000) : Prop :=
  ((val_main_v12 (F := Ideal) a1 : IVec ⟨2, ![250000, 1]⟩ 32) (ix2 e (0 : Fin 1))).toInt = (i.val : ℤ)

instance (a1 : (⟨S2x250000, .i32⟩ : BufTy).Contents (Elt Ideal)) (i : Fin 50000) (e : Fin 250000) :
    Decidable (hit a1 i e) := by unfold hit; infer_instance

/-- The number of edges landing on node i, or one when there is none. -/
def Dg (a1 : (⟨S2x250000, .i32⟩ : BufTy).Contents (Elt Ideal)) (i : Fin 50000) : EReal :=
  (val_main_v19 (F := Ideal) a1 : (⟨1, ![50000]⟩ : Shape).Idx → EReal) (ix1 i)

/-- The head: the mean of the node embeddings h over each graph (a2 names each node's graph), then the classifier
    (a9 its matrix, a10 its bias). -/
def tailT {F : FTy → Type} [FloatOps F] (h : (⟨S50000x128, .f32⟩ : BufTy).Contents (Elt F))
    (a2 : (⟨S50000, .i32⟩ : BufTy).Contents (Elt F)) (a9 : (⟨S16x128, .f32⟩ : BufTy).Contents (Elt F))
    (a10 : (⟨S16, .f32⟩ : BufTy).Contents (Elt F)) : (⟨S64x16, .f32⟩ : BufTy).Contents (Elt F) :=
  addf (Host.dotGeneral dot_S64x128_S128x16_S64x16_1_0_0_1_n_n none
      (Host.divf (Host.scatterAdd scatter_S64x128_S50000x1_S50000x128_1_0_0_1 (val_main_v60 (F := F))
        (val_main_v61 (F := F) a2) h) (val_main_v70 (F := F) a2))
      (val_main_v72 (F := F) a9))
    (val_main_v75 (F := F) a10)

/-- The reference's result is the head of its second layer's output. -/
theorem ref_tail {F : FTy → Type} [FloatOps F] (x0 : (⟨S50000x1024, .f32⟩ : BufTy).Contents (Elt F)) (x1 : (⟨S2x250000, .i32⟩ : BufTy).Contents (Elt F)) (x2 : (⟨S50000, .i32⟩ : BufTy).Contents (Elt F)) (x3 : (⟨S256x1024, .f32⟩ : BufTy).Contents (Elt F)) (x4 : (⟨S256, .f32⟩ : BufTy).Contents (Elt F)) (x5 : (⟨S256x1024, .f32⟩ : BufTy).Contents (Elt F)) (x6 : (⟨S128x256, .f32⟩ : BufTy).Contents (Elt F)) (x7 : (⟨S128, .f32⟩ : BufTy).Contents (Elt F)) (x8 : (⟨S128x256, .f32⟩ : BufTy).Contents (Elt F)) (x9 : (⟨S16x128, .f32⟩ : BufTy).Contents (Elt F)) (x10 : (⟨S16, .f32⟩ : BufTy).Contents (Elt F)) :
    val_main_v76 (F := F) x0 x1 x2 x3 x4 x5 x6 x7 x8 x9 x10
      = tailT (val_main_v59 (F := F) x0 x1 x3 x4 x5 x6 x7 x8) x2 x9 x10 := rfl

end Cert.Shared

end
-- ==== Proof.KHost.lean ====
/-
  What the host stretches of the kernel program leave in the buffers the launches and the later stretches read, each as
  the stretch's operations applied to the contents it started from.
-/
import proofs.«162258_j81879256531434_2_alg».proof.Proof.KWalk
import proofs.«162258_j81879256531434_2_alg».proof.Proof.Shared
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ### The first stretch -/

/-- The edge sources, as a vector. -/
theorem W1_v1 (c : Dev nD) : (W1 m ρ c (Proc.devRef .tc main_v1) : S250000.Idx → Elt F .i32)
    = Cert.ReferenceIdeal.Read.val_main_v1 (F := F) (m ((c : Thread nD τ).loc main_arg1)) := by
  show StableHlo.after hostOps0 (W0 m ρ c) (Proc.devRef .tc main_v1) = _
  after_results
  rfl

/-- The edge targets, as a vector. -/
theorem W1_v3 (c : Dev nD) : (W1 m ρ c (Proc.devRef .tc main_v3) : S250000.Idx → Elt F .i32)
    = Cert.ReferenceIdeal.Read.val_main_v3 (F := F) (m ((c : Thread nD τ).loc main_arg1)) := by
  show StableHlo.after hostOps0 (W0 m ρ c) (Proc.devRef .tc main_v3) = _
  after_results
  rfl

/-- The reciprocal of the degree (one over the number of edges landing on a node, or over one), as a column. -/
theorem W1_v12 (c : Dev nD) : (W1 m ρ c (Proc.devRef .tc main_v12) : S50000x1.Idx → Elt F .f32)
    = shapeCast S50000x1 (Host.divf (broadcastInDim S50000 ![] bcast_S_S50000 (constant (F := F) S_ .f32 0x3F800000#32))
        (Cert.ReferenceIdeal.Read.val_main_v19 (F := F) (m ((c : Thread nD τ).loc main_arg1)))) shapeCasts_S50000_S50000x1 := by
  show StableHlo.after hostOps0 (W0 m ρ c) (Proc.devRef .tc main_v12) = _
  after_results
  rfl

/-- The first layer's left weight, transposed. -/
theorem W1_v14 (c : Dev nD) : (W1 m ρ c (Proc.devRef .tc main_v14) : S1024x256.Idx → Elt F .bf16)
    = truncf .bf16 (transpose S1024x256 [1, 0] (m ((c : Thread nD τ).loc main_arg3) : S256x1024.Idx → Elt F .f32)
        transposes_S256x1024_S1024x256_1_0) bitsLt_bf16_f32 := by
  show StableHlo.after hostOps0 (W0 m ρ c) (Proc.devRef .tc main_v14) = _
  after_results

/-- The first layer's right weight, transposed. -/
theorem W1_v16 (c : Dev nD) : (W1 m ρ c (Proc.devRef .tc main_v16) : S1024x256.Idx → Elt F .bf16)
    = truncf .bf16 (transpose S1024x256 [1, 0] (m ((c : Thread nD τ).loc main_arg5) : S256x1024.Idx → Elt F .f32)
        transposes_S256x1024_S1024x256_1_0) bitsLt_bf16_f32 := by
  show StableHlo.after hostOps0 (W0 m ρ c) (Proc.devRef .tc main_v16) = _
  after_results

/-! ### Buffers no segment has written yet hold their launch contents -/

theorem carry2 (c : Dev nD) (r : Ref sig .tc) (h0 : r ∉ wr0) (a0 : ∀ w, Pipeline.arrRef spec0 w ≠ r) :
    W2 m ρ c (Proc.devRef .tc r) = m ((c : Thread nD τ).loc r) :=
  (W2_of_ne m ρ c r a0).trans (W1_of m ρ c r h0)
theorem carry4 (c : Dev nD) (r : Ref sig .tc) (h0 : r ∉ wr0) (a0 : ∀ w, Pipeline.arrRef spec0 w ≠ r)
    (h1 : r ∉ wr1) (a1 : ∀ w, Pipeline.arrRef spec1 w ≠ r) :
    W4 m ρ c (Proc.devRef .tc r) = m ((c : Thread nD τ).loc r) :=
  (W4_of_ne m ρ c r a1).trans ((W3_of m ρ c r h1).trans (carry2 m ρ c r h0 a0))
theorem carry6 (c : Dev nD) (r : Ref sig .tc) (h0 : r ∉ wr0) (a0 : ∀ w, Pipeline.arrRef spec0 w ≠ r)
    (h1 : r ∉ wr1) (a1 : ∀ w, Pipeline.arrRef spec1 w ≠ r) (h2 : r ∉ wr2) (a2 : ∀ w, Pipeline.arrRef spec2 w ≠ r) :
    W6 m ρ c (Proc.devRef .tc r) = m ((c : Thread nD τ).loc r) :=
  (W6_of_ne m ρ c r a2).trans ((W5_of m ρ c r h2).trans (carry4 m ρ c r h0 a0 h1 a1))
theorem carry8 (c : Dev nD) (r : Ref sig .tc) (h0 : r ∉ wr0) (a0 : ∀ w, Pipeline.arrRef spec0 w ≠ r)
    (h1 : r ∉ wr1) (a1 : ∀ w, Pipeline.arrRef spec1 w ≠ r) (h2 : r ∉ wr2) (a2 : ∀ w, Pipeline.arrRef spec2 w ≠ r)
    (h3 : r ∉ wr3) (a3 : ∀ w, Pipeline.arrRef spec3 w ≠ r) :
    W8 m ρ c (Proc.devRef .tc r) = m ((c : Thread nD τ).loc r) :=
  (W8_of_ne m ρ c r a3).trans ((W7_of m ρ c r h3).trans (carry6 m ρ c r h0 a0 h1 a1 h2 a2))

/-! ### What the first stretch wrote, found later -/

theorem W2_v1 (c : Dev nD) : (W2 m ρ c (Proc.devRef .tc main_v1) : S250000.Idx → Elt F .i32)
    = Cert.ReferenceIdeal.Read.val_main_v1 (F := F) (m ((c : Thread nD τ).loc main_arg1)) :=
  (W2_of_ne m ρ c main_v1 (by decide)).trans (W1_v1 m ρ c)
theorem W2_v3 (c : Dev nD) : (W2 m ρ c (Proc.devRef .tc main_v3) : S250000.Idx → Elt F .i32)
    = Cert.ReferenceIdeal.Read.val_main_v3 (F := F) (m ((c : Thread nD τ).loc main_arg1)) :=
  (W2_of_ne m ρ c main_v3 (by decide)).trans (W1_v3 m ρ c)
theorem W6_v1 (c : Dev nD) : (W6 m ρ c (Proc.devRef .tc main_v1) : S250000.Idx → Elt F .i32)
    = Cert.ReferenceIdeal.Read.val_main_v1 (F := F) (m ((c : Thread nD τ).loc main_arg1)) :=
  (W6_of_ne m ρ c main_v1 (by decide)).trans ((W5_of m ρ c main_v1 (by decide)).trans ((W4_of_ne m ρ c main_v1 (by decide)).trans
    ((W3_of m ρ c main_v1 (by decide)).trans (W2_v1 m ρ c))))
theorem W6_v3 (c : Dev nD) : (W6 m ρ c (Proc.devRef .tc main_v3) : S250000.Idx → Elt F .i32)
    = Cert.ReferenceIdeal.Read.val_main_v3 (F := F) (m ((c : Thread nD τ).loc main_arg1)) :=
  (W6_of_ne m ρ c main_v3 (by decide)).trans ((W5_of m ρ c main_v3 (by decide)).trans ((W4_of_ne m ρ c main_v3 (by decide)).trans
    ((W3_of m ρ c main_v3 (by decide)).trans (W2_v3 m ρ c))))
theorem W3_v12 (c : Dev nD) : W3 m ρ c (Proc.devRef .tc main_v12) = W1 m ρ c (Proc.devRef .tc main_v12) :=
  (W3_of m ρ c main_v12 (by decide)).trans (W2_of_ne m ρ c main_v12 (by decide))
theorem W7_v12 (c : Dev nD) : W7 m ρ c (Proc.devRef .tc main_v12) = W1 m ρ c (Proc.devRef .tc main_v12) :=
  (W7_of m ρ c main_v12 (by decide)).trans ((W6_of_ne m ρ c main_v12 (by decide)).trans ((W5_of m ρ c main_v12 (by decide)).trans
    (((W4_arr m ρ c 3).trans (((dat1 (V3 m ρ) c).arrAt_in 3 rfl _).trans (A_eq1 (V3 m ρ) c 3))).trans (W3_v12 m ρ c))))

/-! ### The second stretch: gather the projected rows along the edges, add them up per target node -/

theorem W3_v27 (c : Dev nD) : (W3 m ρ c (Proc.devRef .tc main_v27) : S50000x256.Idx → Elt F .f32)
    = Host.scatterAdd scatter_S50000x256_S250000x1_S250000x256_1_0_0_1 (Cert.ReferenceIdeal.Read.val_main_v39 (F := F))
        (Cert.ReferenceIdeal.Read.val_main_v12 (F := F) (m ((c : Thread nD τ).loc main_arg1)))
        (Host.gather gather_S50000x256_S250000x1_S250000x256_1_0_n_n_0_1_1256
          (W2 m ρ c (Proc.devRef .tc main_v17_0) : S50000x256.Idx → Elt F .f32)
          (Cert.ReferenceIdeal.Read.val_main_v9 (F := F) (m ((c : Thread nD τ).loc main_arg1)))) := by
  show StableHlo.after hostOps1 (W2 m ρ c) (Proc.devRef .tc main_v27) = _
  after_results
  rw [W2_v1 m ρ c, W2_v3 m ρ c]
  rfl

theorem W3_v28 (c : Dev nD) : (W3 m ρ c (Proc.devRef .tc main_v28) : S1x256.Idx → Elt F .f32)
    = shapeCast S1x256 (m ((c : Thread nD τ).loc main_arg4) : S256.Idx → Elt F .f32) shapeCasts_S256_S1x256 := by
  show StableHlo.after hostOps1 (W2 m ρ c) (Proc.devRef .tc main_v28) = _
  after_results
  rw [carry2 m ρ c main_arg4 (by decide) (by decide)]
  rfl

theorem W3_v17_1 (c : Dev nD) : W3 m ρ c (Proc.devRef .tc main_v17_1) = W2 m ρ c (Proc.devRef .tc main_v17_1) :=
  W3_of m ρ c main_v17_1 (by decide)

/-! ### The third stretch: the second layer's weights, transposed -/

theorem W5_v31 (c : Dev nD) : (W5 m ρ c (Proc.devRef .tc main_v31) : S256x128.Idx → Elt F .bf16)
    = truncf .bf16 (transpose S256x128 [1, 0] (m ((c : Thread nD τ).loc main_arg6) : S128x256.Idx → Elt F .f32)
        transposes_S128x256_S256x128_1_0) bitsLt_bf16_f32 := by
  show StableHlo.after hostOps2 (W4 m ρ c) (Proc.devRef .tc main_v31) = _
  after_results
  rw [carry4 m ρ c main_arg6 (by decide) (by decide) (by decide) (by decide)]

theorem W5_v33 (c : Dev nD) : (W5 m ρ c (Proc.devRef .tc main_v33) : S256x128.Idx → Elt F .bf16)
    = truncf .bf16 (transpose S256x128 [1, 0] (m ((c : Thread nD τ).loc main_arg8) : S128x256.Idx → Elt F .f32)
        transposes_S128x256_S256x128_1_0) bitsLt_bf16_f32 := by
  show StableHlo.after hostOps2 (W4 m ρ c) (Proc.devRef .tc main_v33) = _
  after_results
  rw [carry4 m ρ c main_arg8 (by decide) (by decide) (by decide) (by decide)]

theorem W5_v29 (c : Dev nD) : W5 m ρ c (Proc.devRef .tc main_v29) = W4 m ρ c (Proc.devRef .tc main_v29) :=
  W5_of m ρ c main_v29 (by decide)

/-! ### The fourth stretch: the same gather and sum for the second layer -/

theorem W7_v44 (c : Dev nD) : (W7 m ρ c (Proc.devRef .tc main_v44) : S50000x128.Idx → Elt F .f32)
    = Host.scatterAdd scatter_S50000x128_S250000x1_S250000x128_1_0_0_1
        (broadcastInDim S50000x128 ![] bcast_S_S50000x128 (constant (F := F) S_ .f32 0x00000000#32))
        (Cert.ReferenceIdeal.Read.val_main_v12 (F := F) (m ((c : Thread nD τ).loc main_arg1)))
        (Host.gather gather_S50000x128_S250000x1_S250000x128_1_0_n_n_0_1_1128
          (W6 m ρ c (Proc.devRef .tc main_v34_0) : S50000x128.Idx → Elt F .f32)
          (Cert.ReferenceIdeal.Read.val_main_v9 (F := F) (m ((c : Thread nD τ).loc main_arg1)))) := by
  show StableHlo.after hostOps3 (W6 m ρ c) (Proc.devRef .tc main_v44) = _
  after_results
  rw [W6_v1 m ρ c, W6_v3 m ρ c]
  rfl

theorem W7_v45 (c : Dev nD) : (W7 m ρ c (Proc.devRef .tc main_v45) : S1x128.Idx → Elt F .f32)
    = shapeCast S1x128 (m ((c : Thread nD τ).loc main_arg7) : S128.Idx → Elt F .f32) shapeCasts_S128_S1x128 := by
  show StableHlo.after hostOps3 (W6 m ρ c) (Proc.devRef .tc main_v45) = _
  after_results
  rw [carry6 m ρ c main_arg7 (by decide) (by decide) (by decide) (by decide) (by decide) (by decide)]
  rfl

theorem W7_v34_1 (c : Dev nD) : W7 m ρ c (Proc.devRef .tc main_v34_1) = W6 m ρ c (Proc.devRef .tc main_v34_1) :=
  W7_of m ρ c main_v34_1 (by decide)

/-! ### The last stretch: the pooling head on what the fourth launch left -/

set_option maxHeartbeats 1000000 in
theorem W9_v63 (c : Dev nD) : (W9 m ρ c (Proc.devRef .tc main_v63) : S64x16.Idx → Elt F .f32)
    = Cert.Shared.tailT (F := F) (W8 m ρ c (Proc.devRef .tc main_v46) : S50000x128.Idx → Elt F .f32)
        (m ((c : Thread nD τ).loc main_arg2)) (m ((c : Thread nD τ).loc main_arg9)) (m ((c : Thread nD τ).loc main_arg10)) := by
  have e2 := carry8 m ρ c main_arg2 (by decide) (by decide) (by decide) (by decide) (by decide) (by decide) (by decide) (by decide)
  have e9 := carry8 m ρ c main_arg9 (by decide) (by decide) (by decide) (by decide) (by decide) (by decide) (by decide) (by decide)
  have e10 := carry8 m ρ c main_arg10 (by decide) (by decide) (by decide) (by decide) (by decide) (by decide) (by decide) (by decide)
  show StableHlo.after hostOps4 (W8 m ρ c) (Proc.devRef .tc main_v63) = _
  after_results
  rw [e2, e9, e10]
  rfl

end Cert.KernelIdeal.Hand

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.KPayloads.lean ====
/-
  The arithmetic of the four kernel bodies, read at an index, at the ideal values.

  The two projection bodies multiply a block of rows by a weight matrix: the entry (p, q) of each product is the
  sum over k of x (p, k) · w (k, q) — the narrowing of the left operand to a shorter float format and the
  reshaping of the right operand to its own shape change no entry. The two finishing bodies scale row p of a
  block by that row's factor, add a second block and a bias row, and take the maximum with zero:
  max (a (p, q) · s (p, 0) + b (p, q) + r (0, q)) 0.
-/
import proofs.«162258_j81879256531434_2_alg».proof.Proof.Gen.KernelIdeal.Skeleton
import proofs.«162258_j81879256531434_2_alg».proof.Proof.LibRowColDot
import proofs.«162258_j81879256531434_2_alg».proof.Proof.LibColumnBroadcast
import proofs.«162258_j81879256531434_2_alg».proof.Proof.LibRowBroadcast
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### The dimension numbers of the two products: the kept coordinate of each operand index is the output's -/

/-- [2000, 1024] · [1024, 256]: the left operand's row is the output's row. -/
theorem wide_lhs0 (j : S2000x256.Idx) (q : dot_S2000x1024_S1024x256_S2000x256_1_0_0_1_n_n.contr.Idx) :
    (dot_S2000x1024_S1024x256_S2000x256_1_0_0_1_n_n.lhsIdx j q 0).val = (j 0).val := by
  unfold DotDims.lhsIdx
  rw [dif_neg (show ¬(0 : Fin S2000x1024.rank) ∈ dot_S2000x1024_S1024x256_S2000x256_1_0_0_1_n_n.lhsBatch by decide),
    dif_pos (show (0 : Fin S2000x1024.rank) ∈ dot_S2000x1024_S1024x256_S2000x256_1_0_0_1_n_n.lhsNonContracting by decide)]
  rfl

/-- [2000, 1024] · [1024, 256]: the right operand's column is the output's column. -/
theorem wide_rhs1 (j : S2000x256.Idx) (q : dot_S2000x1024_S1024x256_S2000x256_1_0_0_1_n_n.contr.Idx) :
    (dot_S2000x1024_S1024x256_S2000x256_1_0_0_1_n_n.rhsIdx j q 1).val = (j 1).val := by
  unfold DotDims.rhsIdx
  rw [dif_neg (show ¬(1 : Fin S1024x256.rank) ∈ dot_S2000x1024_S1024x256_S2000x256_1_0_0_1_n_n.rhsBatch by decide),
    dif_pos (show (1 : Fin S1024x256.rank) ∈ dot_S2000x1024_S1024x256_S2000x256_1_0_0_1_n_n.rhsNonContracting by decide)]
  rfl

/-- [2000, 256] · [256, 128]: the left operand's row is the output's row. -/
theorem narrow_lhs0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- [2000, 256] · [256, 128]: the right operand's column is the output's column. -/
theorem narrow_rhs1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-! ### The projection bodies -/

/-- The first product of the wide projection at (p, q): Σ_k x (p, k) · w (k, q). -/
theorem pay0_2 (x0 : Vec Ideal S2000x1024 .f32) (x1 : Vec Ideal S1024x256 .bf16) (p : Fin 2000) (q : Fin 256) :
    k0_pay2 (F := Ideal) x0 x1 (ix2 p q) = ∑ k : Fin 1024, x0 (ix2 p k) * x1 (ix2 k q) := by
  unfold k0_pay2 k0_pay1
  dsimp only
  refine (Cert.RowColDot.matmul_rowcol dot_S2000x1024_S1024x256_S2000x256_1_0_0_1_n_n rfl rfl rfl rfl
    wide_lhs0 wide_rhs1 none _ _ (ix2 p q)).trans ?_
  refine Finset.sum_congr rfl fun k _ => ?_
  exact congrArg (fun w : S1024x256.Idx → EReal => x0 (ix2 p k) * w (ix2 k q)) (shapeCast_self x1 _)

/-- The second product of the wide projection at (p, q): the same sum over its own weight matrix. -/
theorem pay0_3 (x0 : Vec Ideal S2000x1024 .f32) (x1 : Vec Ideal S1024x256 .bf16) (p : Fin 2000) (q : Fin 256) :
    k0_pay3 (F := Ideal) x0 x1 (ix2 p q) = ∑ k : Fin 1024, x0 (ix2 p k) * x1 (ix2 k q) := by
  unfold k0_pay3 k0_pay1
  dsimp only
  refine (Cert.RowColDot.matmul_rowcol dot_S2000x1024_S1024x256_S2000x256_1_0_0_1_n_n rfl rfl rfl rfl
    wide_lhs0 wide_rhs1 none _ _ (ix2 p q)).trans ?_
  refine Finset.sum_congr rfl fun k _ => ?_
  exact congrArg (fun w : S1024x256.Idx → EReal => x0 (ix2 p k) * w (ix2 k q)) (shapeCast_self x1 _)

/-- The first product of the narrow projection at (p, q): Σ_k x (p, k) · w (k, q). -/
theorem pay2_2 (x0 : Vec Ideal S2000x256 .f32) (x1 : Vec Ideal S256x128 .bf16) (p : Fin 2000) (q : Fin 128) :
    k2_pay2 (F := Ideal) x0 x1 (ix2 p q) = ∑ k : Fin 256, x0 (ix2 p k) * x1 (ix2 k q) := by
  unfold k2_pay2 k2_pay1
  dsimp only
  refine (Cert.RowColDot.matmul_rowcol dot_S2000x256_S256x128_S2000x128_1_0_0_1_n_n rfl rfl rfl rfl
    narrow_lhs0 narrow_rhs1 none _ _ (ix2 p q)).trans ?_
  refine Finset.sum_congr rfl fun k _ => ?_
  refine (congrArg (fun w : S256x128.Idx → EReal =>
    (shapeCast S2000x256 x0 shapeCasts_S2000x256_S2000x256 : S2000x256.Idx → EReal) (ix2 p k) * w (ix2 k q))
    (shapeCast_self x1 _)).trans ?_
  exact congrArg (fun u : S2000x256.Idx → EReal => u (ix2 p k) * x1 (ix2 k q)) (shapeCast_self x0 _)

/-- The second product of the narrow projection at (p, q): the same sum over its own weight matrix. -/
theorem pay2_3 (x0 : Vec Ideal S2000x256 .f32) (x1 : Vec Ideal S256x128 .bf16) (p : Fin 2000) (q : Fin 128) :
    k2_pay3 (F := Ideal) x0 x1 (ix2 p q) = ∑ k : Fin 256, x0 (ix2 p k) * x1 (ix2 k q) := by
  unfold k2_pay3 k2_pay1
  dsimp only
  refine (Cert.RowColDot.matmul_rowcol dot_S2000x256_S256x128_S2000x128_1_0_0_1_n_n rfl rfl rfl rfl
    narrow_lhs0 narrow_rhs1 none _ _ (ix2 p q)).trans ?_
  refine Finset.sum_congr rfl fun k _ => ?_
  refine (congrArg (fun w : S256x128.Idx → EReal =>
    (shapeCast S2000x256 x0 shapeCasts_S2000x256_S2000x256 : S2000x256.Idx → EReal) (ix2 p k) * w (ix2 k q))
    (shapeCast_self x1 _)).trans ?_
  exact congrArg (fun u : S2000x256.Idx → EReal => u (ix2 p k) * x1 (ix2 k q)) (shapeCast_self x0 _)

/-! ### The finishing bodies -/

/-- The wide finishing body at (p, q): row p scaled by its factor, plus the second block, plus the bias row,
    clipped below at zero. -/
theorem pay1 (v0 : Vec Ideal S2000x256 .f32) (v2 : Vec Ideal S2000x1 .f32) (v6 : Vec Ideal S2000x256 .f32)
    (v9 : Vec Ideal S1x256 .f32) (p : Fin 2000) (q : Fin 256) :
    k1_pay1 (F := Ideal) v0 v2 v6 v9 (ix2 p q)
      = max (((v0 (ix2 p q) * v2 (ix2 p (0 : Fin 1))) + v6 (ix2 p q)) + v9 (ix2 (0 : Fin 1) q)) 0 := by
  unfold k1_pay1
  rw [maximumf_apply, addf_apply, addf_apply, mulf_apply, broadcast_apply,
    shapeCast_self v0, shapeCast_self v2, shapeCast_self v6, shapeCast_self v9,
    Cert.WeightUpdate.Layout.broadcastTo_a1_ab_apply, Cert.RowBroadcast.row_broadcast_apply]
  exact congrArg (max _) Ideal.ofBits_zero_f32

/-- The narrow finishing body at (p, q): the same arithmetic on blocks of 128 columns. -/
theorem pay3 (v0 : Vec Ideal S2000x128 .f32) (v2 : Vec Ideal S2000x1 .f32) (v6 : Vec Ideal S2000x128 .f32)
    (v9 : Vec Ideal S1x128 .f32) (p : Fin 2000) (q : Fin 128) :
    k3_pay1 (F := Ideal) v0 v2 v6 v9 (ix2 p q)
      = max (((v0 (ix2 p q) * v2 (ix2 p (0 : Fin 1))) + v6 (ix2 p q)) + v9 (ix2 (0 : Fin 1) q)) 0 := by
  unfold k3_pay1
  rw [maximumf_apply, addf_apply, addf_apply, mulf_apply, broadcast_apply,
    shapeCast_self v0, shapeCast_self v2, shapeCast_self v6, shapeCast_self v9,
    Cert.WeightUpdate.Layout.broadcastTo_a1_ab_apply, Cert.RowBroadcast.row_broadcast_apply]
  exact congrArg (max _) Ideal.ofBits_zero_f32

end Cert.KernelIdeal.Pay

end
-- ==== Proof.KArrays.lean ====
/-
  The two whole-array functions the kernels compute, entry by entry.

  matArr X Wt is the product of the rows of X with the columns of Wt: entry (i, c) is Σ_k X(i,k) · Wt(k,c).
  finArr A Xr b dr is the last step of a layer: entry (i, c) is max(A(i,c) · dr(i) + Xr(i,c) + b(c), 0), with dr a
  column (one scale per row) and b a row (one bias per column).
-/
import Idealize.ShloMosaic.PureOps.Ideal
import Idealize.ShloMosaic.Lib.ValueIdx

noncomputable section

open scoped BigOperators

namespace Cert.KernelIdeal.Hand

open Idealize.ShloMosaic Idealize.ShloMosaic.ValueIdx

/-- Rows of X against columns of Wt. -/
def matArr {N K C : ℕ} (X : (⟨2, ![N, K]⟩ : Shape).Idx → EReal) (Wt : (⟨2, ![K, C]⟩ : Shape).Idx → EReal) :
    (⟨2, ![N, C]⟩ : Shape).Idx → EReal :=
  fun j => ∑ k : Fin K, X (ix2 (⟨(j 0).val, (j 0).isLt⟩ : Fin N) k) * Wt (ix2 k (⟨(j 1).val, (j 1).isLt⟩ : Fin C))

/-- Scale each row, add the second array and the bias row, clamp below at zero. -/
def finArr {N C : ℕ} (A Xr : (⟨2, ![N, C]⟩ : Shape).Idx → EReal) (b : (⟨2, ![1, C]⟩ : Shape).Idx → EReal)
    (dr : (⟨2, ![N, 1]⟩ : Shape).Idx → EReal) : (⟨2, ![N, C]⟩ : Shape).Idx → EReal :=
  fun j => max (((A j * dr (ix2 (⟨(j 0).val, (j 0).isLt⟩ : Fin N) (0 : Fin 1))) + Xr j)
    + b (ix2 (0 : Fin 1) (⟨(j 1).val, (j 1).isLt⟩ : Fin C))) 0

theorem matArr_apply {N K C : ℕ} (X : (⟨2, ![N, K]⟩ : Shape).Idx → EReal) (Wt : (⟨2, ![K, C]⟩ : Shape).Idx → EReal)
    (i : Fin N) (c : Fin C) : matArr X Wt (ix2 i c) = ∑ k : Fin K, X (ix2 i k) * Wt (ix2 k c) := rfl

theorem finArr_apply {N C : ℕ} (A Xr : (⟨2, ![N, C]⟩ : Shape).Idx → EReal) (b : (⟨2, ![1, C]⟩ : Shape).Idx → EReal)
    (dr : (⟨2, ![N, 1]⟩ : Shape).Idx → EReal) (i : Fin N) (c : Fin C) :
    finArr A Xr b dr (ix2 i c) = max (((A (ix2 i c) * dr (ix2 i (0 : Fin 1))) + Xr (ix2 i c)) + b (ix2 (0 : Fin 1) c)) 0 := rfl

end Cert.KernelIdeal.Hand

end
-- ==== Proof.KProj.lean ====
/-
  The two projection launches: after each, its two result arrays are the node array found at entry multiplied by the
  two weight matrices found at entry. Each of the 25 grid points multiplies 2000 rows; the blocks tile the result.
-/
import proofs.«162258_j81879256531434_2_alg».proof.Proof.Gen.KernelIdeal.Frame
import proofs.«162258_j81879256531434_2_alg».proof.Proof.KPayloads
import proofs.«162258_j81879256531434_2_alg».proof.Proof.KArrays
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ### Launch 0: rows of the node array against the two weight matrices -/

/-- The index maps of launch 0, decided over its 25 grid points: the row-blocked windows move with the point, the
    weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem out0_3_eq {F : FTy → Type} [FloatOps F] (x0 : Vec F S2000x1024 .f32) (x1 : Vec F S1024x256 .bf16) (x2 : Vec F S1024x256 .bf16) :
    out0_3 x0 x1 x2 = k0_pay2 x0 x1 := by
  unfold out0_3
  rw [View.canon_unit_zero hz2]
  simp only [View.ld_unit_zero (S := S2000x1024) hz2, View.ld_unit_zero (S := S1024x256) hz2]

theorem out0_4_eq {F : FTy → Type} [FloatOps F] (x0 : Vec F S2000x1024 .f32) (x1 : Vec F S1024x256 .bf16) (x2 : Vec F S1024x256 .bf16) :
    out0_4 x0 x1 x2 = k0_pay3 x0 x2 := by
  unfold out0_4
  rw [View.canon_unit_zero hz2]
  simp only [View.ld_unit_zero (S := S2000x1024) hz2, View.ld_unit_zero (S := S1024x256) hz2]

/-- The node array's block at point t is its rows 2000 t … 2000 t + 1999. -/
theorem iblk0_0_apply (c : Dev nD) (t : Fin cfg0.N) (p : Fin 2000) (k : Fin 1024) (i : Fin 50000)
    (hi : i.val = t.val * 2000 + p.val) :
    (iblk0 V c 0 t : S2000x1024.Idx → EReal) (ix2 p k) = (V c main_arg0 : S50000x1024.Idx → EReal) (ix2 i k) := by
  unfold iblk0
  rw [View.read_apply]
  show V c main_arg0 _ = V c main_arg0 _
  refine congrArg _ (funext fun a => Fin.ext ?_)
  obtain ⟨e0, e1, -⟩ := idx0 t
  match a with
  | ⟨0, _⟩ => show win0_0.index t (0 : Fin 2) * 2000 + 1 * p.val = i.val; rw [e0, hi]; omega
  | ⟨1, _⟩ => show win0_0.index t (1 : Fin 2) * 1024 + 1 * k.val = k.val; rw [e1]; omega

/-- The left weight's block at every point is the whole matrix. -/
theorem iblk0_1_apply (c : Dev nD) (t : Fin cfg0.N) (k : Fin 1024) (q : Fin 256) :
    (iblk0 V c 1 t : S1024x256.Idx → EReal) (ix2 k q) = (V c main_v14 : S1024x256.Idx → EReal) (ix2 k q) := by
  unfold iblk0
  rw [View.read_apply]
  show V c main_v14 _ = V c main_v14 _
  refine congrArg _ (funext fun a => Fin.ext ?_)
  obtain ⟨-, -, e2, e3, -⟩ := idx0 t
  match a with
  | ⟨0, _⟩ => show win0_1.index t (0 : Fin 2) * 1024 + 1 * k.val = k.val; rw [e2]; omega
  | ⟨1, _⟩ => show win0_1.index t (1 : Fin 2) * 256 + 1 * q.val = q.val; rw [e3]; omega

/-- The right weight's block at every point is the whole matrix. -/
theorem iblk0_2_apply (c : Dev nD) (t : Fin cfg0.N) (k : Fin 1024) (q : Fin 256) :
    (iblk0 V c 2 t : S1024x256.Idx → EReal) (ix2 k q) = (V c main_v16 : S1024x256.Idx → EReal) (ix2 k q) := by
  unfold iblk0
  rw [View.read_apply]
  show V c main_v16 _ = V c main_v16 _
  refine congrArg _ (funext fun a => Fin.ext ?_)
  obtain ⟨-, -, -, -, e4, e5, -⟩ := idx0 t
  match a with
  | ⟨0, _⟩ => show win0_2.index t (0 : Fin 2) * 1024 + 1 * k.val = k.val; rw [e4]; omega
  | ⟨1, _⟩ => show win0_2.index t (1 : Fin 2) * 256 + 1 * q.val = q.val; rw [e5]; omega

/-- The output index that entry (p, q) of point t's block is written to. -/
theorem emb0_3 (t : Fin cfg0.N) (p : Fin 2000) (q : Fin 256) (i : Fin 50000) (hi : i.val = t.val * 2000 + p.val) :
    ((cfg0.win 3).blk t).view.emb (ix2 p q) = (ix2 i q : S50000x256.Idx) := by
  obtain ⟨-, -, -, -, -, -, e6, e7, -⟩ := idx0 t
  refine funext fun a => Fin.ext ?_
  match a with
  | ⟨0, _⟩ => show win0_3.index t (0 : Fin 2) * 2000 + 1 * p.val = i.val; rw [e6, hi]; omega
  | ⟨1, _⟩ => show win0_3.index t (1 : Fin 2) * 256 + 1 * q.val = q.val; rw [e7]; omega

theorem emb0_4 (t : Fin cfg0.N) (p : Fin 2000) (q : Fin 256) (i : Fin 50000) (hi : i.val = t.val * 2000 + p.val) :
    ((cfg0.win 4).blk t).view.emb (ix2 p q) = (ix2 i q : S50000x256.Idx) := by
  obtain ⟨-, -, -, -, -, -, -, -, e8, e9⟩ := idx0 t
  refine funext fun a => Fin.ext ?_
  match a with
  | ⟨0, _⟩ => show win0_4.index t (0 : Fin 2) * 2000 + 1 * p.val = i.val; rw [e8, hi]; omega
  | ⟨1, _⟩ => show win0_4.index t (1 : Fin 2) * 256 + 1 * q.val = q.val; rw [e9]; omega

/-- What point t writes back through the first result window: its block of the product with the left weight. -/
theorem flushed0_3 (c : Dev nD) (t : Fin cfg0.N) :
    (dat0 V c).flushed 3 t = ((cfg0.win 3).blk t).view.read (Elt Ideal)
      (matArr (V c main_arg0 : S50000x1024.Idx → EReal) (V c main_v14 : S1024x256.Idx → EReal)) := by
  show (cfg0.win 3).cut (grid0.coords t) ((dat0 V c).after 3 t) = _
  rw [after0_3, out0_3_eq]
  funext j
  obtain ⟨p, q, rfl⟩ : ∃ (p : Fin 2000) (q : Fin 256), j = ix2 p q := ⟨j 0, j 1, eq_ix2 j⟩
  have hN : cfg0.N = 25 := N_0
  have ht : t.val < 25 := hN ▸ t.isLt
  have hp : t.val * 2000 + p.val < 50000 := by have := p.isLt; omega
  refine (Pay.pay0_2 _ _ p q).trans ?_
  rw [View.read_apply, emb0_3 t p q ⟨t.val * 2000 + p.val, hp⟩ rfl, matArr_apply]
  refine Finset.sum_congr rfl fun k _ => ?_
  rw [iblk0_0_apply V c t p k ⟨t.val * 2000 + p.val, hp⟩ rfl, iblk0_1_apply V c t k q]

/-- What point t writes back through the second result window: its block of the product with the right weight. -/
theorem flushed0_4 (c : Dev nD) (t : Fin cfg0.N) :
    (dat0 V c).flushed 4 t = ((cfg0.win 4).blk t).view.read (Elt Ideal)
      (matArr (V c main_arg0 : S50000x1024.Idx → EReal) (V c main_v16 : S1024x256.Idx → EReal)) := by
  show (cfg0.win 4).cut (grid0.coords t) ((dat0 V c).after 4 t) = _
  rw [after0_4, out0_4_eq]
  funext j
  obtain ⟨p, q, rfl⟩ : ∃ (p : Fin 2000) (q : Fin 256), j = ix2 p q := ⟨j 0, j 1, eq_ix2 j⟩
  have hN : cfg0.N = 25 := N_0
  have ht : t.val < 25 := hN ▸ t.isLt
  have hp : t.val * 2000 + p.val < 50000 := by have := p.isLt; omega
  refine (Pay.pay0_3 _ _ p q).trans ?_
  rw [View.read_apply, emb0_4 t p q ⟨t.val * 2000 + p.val, hp⟩ rfl, matArr_apply]
  refine Finset.sum_congr rfl fun k _ => ?_
  rw [iblk0_0_apply V c t p k ⟨t.val * 2000 + p.val, hp⟩ rfl, iblk0_2_apply V c t k q]

/-- An index of a result array is in point t's block iff its row is among the block's 2000 rows. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v17_0).slice (win0_3.rect t)).set ↔ _
  rw [View.set_slice_whole, Rect.mem_set_unit]
  exact Iff.rfl

theorem mem_blk0_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v17_1).slice (win0_4.rect t)).set ↔ _
  rw [View.set_slice_whole, Rect.mem_set_unit]
  exact Iff.rfl

/-- Every row of the result is in the block of the point numbered by the row's quotient by 2000. -/
theorem cover0_3' (i : S50000x256.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 256 := (i 1).isLt
  refine ⟨⟨(i 0).val / 2000, by rw [hN]; omega⟩, flush0_3 _, ?_⟩
  rw [mem_blk0_3]
  obtain ⟨-, -, -, -, -, -, e6, e7, -⟩ := idx0 (⟨(i 0).val / 2000, by rw [hN]; omega⟩ : Fin cfg0.N)
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e7]; omega

theorem cover0_4' (i : S50000x256.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 256 := (i 1).isLt
  refine ⟨⟨(i 0).val / 2000, by rw [hN]; omega⟩, flush0_4 _, ?_⟩
  rw [mem_blk0_4]
  obtain ⟨-, -, -, -, -, -, -, -, e8, e9⟩ := idx0 (⟨(i 0).val / 2000, by rw [hN]; omega⟩ : Fin cfg0.N)
  intro a
  match a with
  | ⟨0, _⟩ =>
    show win0_4.index _ (0 : Fin 2) * 2000 ≤ (i 0).val ∧ (i 0).val < win0_4.index _ (0 : Fin 2) * 2000 + 2000
    rw [e8]; show (i 0).val / 2000 * 2000 ≤ (i 0).val ∧ (i 0).val < (i 0).val / 2000 * 2000 + 2000; omega
  | ⟨1, _⟩ =>
    show win0_4.index _ (1 : Fin 2) * 256 ≤ (i 1).val ∧ (i 1).val < win0_4.index _ (1 : Fin 2) * 256 + 256
    rw [e9]; omega

/-- After launch 0 the first result array is the node array times the left weight. -/
theorem final0_3 (c : Dev nD) : ((dat0 V c).arrAt 3 cfg0.N : S50000x256.Idx → EReal)
    = matArr (V c main_arg0 : S50000x1024.Idx → EReal) (V c main_v14 : S1024x256.Idx → EReal) :=
  (dat0 V c).arrAt_eq_of_cover 3 _ (fun t _ => flushed0_3 V c t) (cover0_3')

/-- After launch 0 the second result array is the node array times the right weight. -/
theorem final0_4 (c : Dev nD) : ((dat0 V c).arrAt 4 cfg0.N : S50000x256.Idx → EReal)
    = matArr (V c main_arg0 : S50000x1024.Idx → EReal) (V c main_v16 : S1024x256.Idx → EReal) :=
  (dat0 V c).arrAt_eq_of_cover 4 _ (fun t _ => flushed0_4 V c t) (cover0_4')

/-! ### Launch 2: rows of the node array against the two weight matrices -/

/-- The index maps of launch 2, decided over its 25 grid points: the row-blocked windows move with the point, the
    weights stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem out2_3_eq {F : FTy → Type} [FloatOps F] (x0 : Vec F S2000x256 .f32) (x1 : Vec F S256x128 .bf16) (x2 : Vec F S256x128 .bf16) :
    out2_3 x0 x1 x2 = k2_pay2 x0 x1 := by
  unfold out2_3
  rw [View.canon_unit_zero hz2]
  simp only [View.ld_unit_zero (S := S2000x256) hz2, View.ld_unit_zero (S := S256x128) hz2]

theorem out2_4_eq {F : FTy → Type} [FloatOps F] (x0 : Vec F S2000x256 .f32) (x1 : Vec F S256x128 .bf16) (x2 : Vec F S256x128 .bf16) :
    out2_4 x0 x1 x2 = k2_pay3 x0 x2 := by
  unfold out2_4
  rw [View.canon_unit_zero hz2]
  simp only [View.ld_unit_zero (S := S2000x256) hz2, View.ld_unit_zero (S := S256x128) hz2]

/-- The node array's block at point t is its rows 2000 t … 2000 t + 1999. -/
theorem iblk2_0_apply (c : Dev nD) (t : Fin cfg2.N) (p : Fin 2000) (k : Fin 256) (i : Fin 50000)
    (hi : i.val = t.val * 2000 + p.val) :
    (iblk2 V c 0 t : S2000x256.Idx → EReal) (ix2 p k) = (V c main_v29 : S50000x256.Idx → EReal) (ix2 i k) := by
  unfold iblk2
  rw [View.read_apply]
  show V c main_v29 _ = V c main_v29 _
  refine congrArg _ (funext fun a => Fin.ext ?_)
  obtain ⟨e0, e1, -⟩ := idx2 t
  match a with
  | ⟨0, _⟩ => show win2_0.index t (0 : Fin 2) * 2000 + 1 * p.val = i.val; rw [e0, hi]; omega
  | ⟨1, _⟩ => show win2_0.index t (1 : Fin 2) * 256 + 1 * k.val = k.val; rw [e1]; omega

/-- The left weight's block at every point is the whole matrix. -/
theorem iblk2_1_apply (c : Dev nD) (t : Fin cfg2.N) (k : Fin 256) (q : Fin 128) :
    (iblk2 V c 1 t : S256x128.Idx → EReal) (ix2 k q) = (V c main_v31 : S256x128.Idx → EReal) (ix2 k q) := by
  unfold iblk2
  rw [View.read_apply]
  show V c main_v31 _ = V c main_v31 _
  refine congrArg _ (funext fun a => Fin.ext ?_)
  obtain ⟨-, -, e2, e3, -⟩ := idx2 t
  match a with
  | ⟨0, _⟩ => show win2_1.index t (0 : Fin 2) * 256 + 1 * k.val = k.val; rw [e2]; omega
  | ⟨1, _⟩ => show win2_1.index t (1 : Fin 2) * 128 + 1 * q.val = q.val; rw [e3]; omega

/-- The right weight's block at every point is the whole matrix. -/
theorem iblk2_2_apply (c : Dev nD) (t : Fin cfg2.N) (k : Fin 256) (q : Fin 128) :
    (iblk2 V c 2 t : S256x128.Idx → EReal) (ix2 k q) = (V c main_v33 : S256x128.Idx → EReal) (ix2 k q) := by
  unfold iblk2
  rw [View.read_apply]
  show V c main_v33 _ = V c main_v33 _
  refine congrArg _ (funext fun a => Fin.ext ?_)
  obtain ⟨-, -, -, -, e4, e5, -⟩ := idx2 t
  match a with
  | ⟨0, _⟩ => show win2_2.index t (0 : Fin 2) * 256 + 1 * k.val = k.val; rw [e4]; omega
  | ⟨1, _⟩ => show win2_2.index t (1 : Fin 2) * 128 + 1 * q.val = q.val; rw [e5]; omega

/-- The output index that entry (p, q) of point t's block is written to. -/
theorem emb2_3 (t : Fin cfg2.N) (p : Fin 2000) (q : Fin 128) (i : Fin 50000) (hi : i.val = t.val * 2000 + p.val) :
    ((cfg2.win 3).blk t).view.emb (ix2 p q) = (ix2 i q : S50000x128.Idx) := by
  obtain ⟨-, -, -, -, -, -, e6, e7, -⟩ := idx2 t
  refine funext fun a => Fin.ext ?_
  match a with
  | ⟨0, _⟩ => show win2_3.index t (0 : Fin 2) * 2000 + 1 * p.val = i.val; rw [e6, hi]; omega
  | ⟨1, _⟩ => show win2_3.index t (1 : Fin 2) * 128 + 1 * q.val = q.val; rw [e7]; omega

theorem emb2_4 (t : Fin cfg2.N) (p : Fin 2000) (q : Fin 128) (i : Fin 50000) (hi : i.val = t.val * 2000 + p.val) :
    ((cfg2.win 4).blk t).view.emb (ix2 p q) = (ix2 i q : S50000x128.Idx) := by
  obtain ⟨-, -, -, -, -, -, -, -, e8, e9⟩ := idx2 t
  refine funext fun a => Fin.ext ?_
  match a with
  | ⟨0, _⟩ => show win2_4.index t (0 : Fin 2) * 2000 + 1 * p.val = i.val; rw [e8, hi]; omega
  | ⟨1, _⟩ => show win2_4.index t (1 : Fin 2) * 128 + 1 * q.val = q.val; rw [e9]; omega

/-- What point t writes back through the first result window: its block of the product with the left weight. -/
theorem flushed2_3 (c : Dev nD) (t : Fin cfg2.N) :
    (dat2 V c).flushed 3 t = ((cfg2.win 3).blk t).view.read (Elt Ideal)
      (matArr (V c main_v29 : S50000x256.Idx → EReal) (V c main_v31 : S256x128.Idx → EReal)) := by
  show (cfg2.win 3).cut (grid2.coords t) ((dat2 V c).after 3 t) = _
  rw [after2_3, out2_3_eq]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hp : t.val * 2000 + p.val < 50000 := by have := p.isLt; omega
  refine (Pay.pay2_2 _ _ p q).trans ?_
  rw [View.read_apply, emb2_3 t p q ⟨t.val * 2000 + p.val, hp⟩ rfl, matArr_apply]
  refine Finset.sum_congr rfl fun k _ => ?_
  rw [iblk2_0_apply V c t p k ⟨t.val * 2000 + p.val, hp⟩ rfl, iblk2_1_apply V c t k q]

/-- What point t writes back through the second result window: its block of the product with the right weight. -/
theorem flushed2_4 (c : Dev nD) (t : Fin cfg2.N) :
    (dat2 V c).flushed 4 t = ((cfg2.win 4).blk t).view.read (Elt Ideal)
      (matArr (V c main_v29 : S50000x256.Idx → EReal) (V c main_v33 : S256x128.Idx → EReal)) := by
  show (cfg2.win 4).cut (grid2.coords t) ((dat2 V c).after 4 t) = _
  rw [after2_4, out2_4_eq]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hp : t.val * 2000 + p.val < 50000 := by have := p.isLt; omega
  refine (Pay.pay2_3 _ _ p q).trans ?_
  rw [View.read_apply, emb2_4 t p q ⟨t.val * 2000 + p.val, hp⟩ rfl, matArr_apply]
  refine Finset.sum_congr rfl fun k _ => ?_
  rw [iblk2_0_apply V c t p k ⟨t.val * 2000 + p.val, hp⟩ rfl, iblk2_2_apply V c t k q]

/-- An index of a result array is in point t's block iff its row is among the block's 2000 rows. -/
theorem mem_blk2_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v34_0).slice (win2_3.rect t)).set ↔ _
  rw [View.set_slice_whole, Rect.mem_set_unit]
  exact Iff.rfl

theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v34_1).slice (win2_4.rect t)).set ↔ _
  rw [View.set_slice_whole, Rect.mem_set_unit]
  exact Iff.rfl

/-- Every row of the result is in the block of the point numbered by the row's quotient by 2000. -/
theorem cover2_3' (i : S50000x128.Idx) : ∃ t : Fin cfg2.N, (cfg2.win 3).flush t = true ∧ i ∈ ((cfg2.win 3).blk t).view.set := by
  have hN : cfg2.N = 25 := N_2
  have hi0 : (i 0).val < 50000 := (i 0).isLt
  have hi1 : (i 1).val < 128 := (i 1).isLt
  refine ⟨⟨(i 0).val / 2000, by rw [hN]; omega⟩, flush2_3 _, ?_⟩
  rw [mem_blk2_3]
  obtain ⟨-, -, -, -, -, -, e6, e7, -⟩ := idx2 (⟨(i 0).val / 2000, by rw [hN]; omega⟩ : Fin cfg2.N)
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 128 ≤ (i 1).val ∧ (i 1).val < win2_3.index _ (1 : Fin 2) * 128 + 128
    rw [e7]; omega

theorem cover2_4' (i : S50000x128.Idx) : ∃ t : Fin cfg2.N, (cfg2.win 4).flush t = true ∧ i ∈ ((cfg2.win 4).blk t).view.set := by
  have hN : cfg2.N = 25 := N_2
  have hi0 : (i 0).val < 50000 := (i 0).isLt
  have hi1 : (i 1).val < 128 := (i 1).isLt
  refine ⟨⟨(i 0).val / 2000, by rw [hN]; omega⟩, flush2_4 _, ?_⟩
  rw [mem_blk2_4]
  obtain ⟨-, -, -, -, -, -, -, -, e8, e9⟩ := idx2 (⟨(i 0).val / 2000, by rw [hN]; omega⟩ : Fin cfg2.N)
  intro a
  match a with
  | ⟨0, _⟩ =>
    show win2_4.index _ (0 : Fin 2) * 2000 ≤ (i 0).val ∧ (i 0).val < win2_4.index _ (0 : Fin 2) * 2000 + 2000
    rw [e8]; show (i 0).val / 2000 * 2000 ≤ (i 0).val ∧ (i 0).val < (i 0).val / 2000 * 2000 + 2000; omega
  | ⟨1, _⟩ =>
    show win2_4.index _ (1 : Fin 2) * 128 ≤ (i 1).val ∧ (i 1).val < win2_4.index _ (1 : Fin 2) * 128 + 128
    rw [e9]; omega

/-- After launch 2 the first result array is the node array times the left weight. -/
theorem final2_3 (c : Dev nD) : ((dat2 V c).arrAt 3 cfg2.N : S50000x128.Idx → EReal)
    = matArr (V c main_v29 : S50000x256.Idx → EReal) (V c main_v31 : S256x128.Idx → EReal) :=
  (dat2 V c).arrAt_eq_of_cover 3 _ (fun t _ => flushed2_3 V c t) (cover2_3')

/-- After launch 2 the second result array is the node array times the right weight. -/
theorem final2_4 (c : Dev nD) : ((dat2 V c).arrAt 4 cfg2.N : S50000x128.Idx → EReal)
    = matArr (V c main_v29 : S50000x256.Idx → EReal) (V c main_v33 : S256x128.Idx → EReal) :=
  (dat2 V c).arrAt_eq_of_cover 4 _ (fun t _ => flushed2_4 V c t) (cover2_4')

end Cert.KernelIdeal.Hand

end
-- ==== Proof.KFinal.lean ====
/-
  The two finishing launches, each as one whole-array function of the arrays it finds.

  A finishing launch walks 25 points; at point t it reads rows t · 2000 … t · 2000 + 1999 of two [50000, C] arrays
  A and Xr and of the column dr [50000, 1], reads the whole bias row b [1, C], and writes the same rows of the result:
  entry (p, q) of the written block is max (A (r, q) · dr (r, 0) + Xr (r, q) + b (0, q)) 0 at the array row
  r = t · 2000 + p. The 25 blocks of 2000 rows tile the 50000 rows — row r lies in the block of point r / 2000 —,
  so after the launch the result array is finArr A Xr b dr at every index. Stated for C = 256 (the first
  finishing launch) and C = 128 (the second).
-/
import proofs.«162258_j81879256531434_2_alg».proof.Proof.Gen.KernelIdeal.Frame
import proofs.«162258_j81879256531434_2_alg».proof.Proof.KArrays
import proofs.«162258_j81879256531434_2_alg».proof.Proof.KPayloads
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block offset (0, 0) is the zero offset. -/
theorem off_zero : (![0, 0] : Fin 2 → Nat) = fun _ => 0 := funext fun a => by fin_cases a <;> rfl

/-! ## The first finishing launch: 256 columns -/

/-- The one store of the body fills the whole block, so the block after the body is the body's
    arithmetic of the four blocks it read. -/
theorem out1_4_eq (x0 : Vec Ideal S2000x256 .f32) (x1 : Vec Ideal S2000x256 .f32) (x2 : Vec Ideal S1x256 .f32)
    (x3 : Vec Ideal S2000x1 .f32) : out1_4 (F := Ideal) x0 x1 x2 x3 = k1_pay1 (F := Ideal) x0 x3 x1 x2 := by
  unfold out1_4
  rw [View.canon_unit_zero off_zero]
  simp only [View.ld_unit_zero (S := S2000x256) off_zero, View.ld_unit_zero (S := S2000x1) off_zero,
    View.ld_unit_zero (S := S1x256) off_zero]

/-- The block each window is on at point t: the three row-blocked inputs and the result at block row t,
    the bias row at its one block; every window at block column 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is row t · 2000 + p of the array. -/
def row1 (t : Fin cfg1.N) (p : Fin 2000) : Fin 50000 :=
  ⟨t.val * 2000 + p.val, by have h := t.isLt; have hN : cfg1.N = 25 := N_1; have := p.isLt; omega⟩

/-- Entry (p, q) of point t's block of the first input is entry (t · 2000 + p, q) of its array. -/
theorem emb1_0 (t : Fin cfg1.N) (p : Fin 2000) (q : Fin 256) :
    ((cfg1.win 0).blk t).view.emb (ix2 p q) = (ix2 (row1 t p) q : S50000x256.Idx) := by
  obtain ⟨e0, e1, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 256 + 1 * q.val = q.val; omega

/-- The first input's block at point t, read at (p, q). -/
theorem blk1_0 (c : Dev nD) (t : Fin cfg1.N) (p : Fin 2000) (q : Fin 256) :
    (iblk1 V c 0 t : S2000x256.Idx → EReal) (ix2 p q) = (V c main_v27 : S50000x256.Idx → EReal) (ix2 (row1 t p) q) := by
  unfold iblk1
  exact congrArg (V c main_v27 : S50000x256.Idx → EReal) (emb1_0 t p q)

/-- The same for the second input. -/
theorem emb1_1 (t : Fin cfg1.N) (p : Fin 2000) (q : Fin 256) :
    ((cfg1.win 1).blk t).view.emb (ix2 p q) = (ix2 (row1 t p) q : S50000x256.Idx) := by
  obtain ⟨-, -, e0, e1, -⟩ := idx_facts1 t
  funext a; apply Fin.ext
  match a with
  | ⟨0, _⟩ => show win1_1.index t (0 : Fin 2) * 2000 + 1 * p.val = t.val * 2000 + p.val; omega
  | ⟨1, _⟩ => show win1_1.index t (1 : Fin 2) * 256 + 1 * q.val = q.val; omega

/-- The bias row's one block is the whole row. -/
theorem emb1_2 (t : Fin cfg1.N) (q : Fin 256) :
    ((cfg1.win 2).blk t).view.emb (ix2 (0 : Fin 1) q) = (ix2 (0 : Fin 1) q : S1x256.Idx) := by
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- Entry (p, 0) of point t's block of the column of row factors is entry (t · 2000 + p, 0) of the column. -/
theorem emb1_3 (t : Fin cfg1.N) (p : Fin 2000) :
    ((cfg1.win 3).blk t).view.emb (ix2 p (0 : Fin 1)) = (ix2 (row1 t p) (0 : Fin 1) : S50000x1.Idx) := by
  obtain ⟨-, -, -, -, -, -, e0, e1, -⟩ := idx_facts1 t
  funext a; apply Fin.ext
  match a with
  | ⟨0, _⟩ => show win1_3.index t (0 : Fin 2) * 2000 + 1 * p.val = t.val * 2000 + p.val; omega
  | ⟨1, _⟩ => show win1_3.index t (1 : Fin 2) * 1 + 1 * 0 = 0; omega

/-- Entry (p, q) of point t's block of the result is entry (t · 2000 + p, q) of the result array. -/
theorem emb1_4 (t : Fin cfg1.N) (p : Fin 2000) (q : Fin 256) :
    ((cfg1.win 4).blk t).view.emb (ix2 p q) = (ix2 (row1 t p) q : S50000x256.Idx) := by
  obtain ⟨-, -, -, -, -, -, -, -, e0, e1⟩ := idx_facts1 t
  funext a; apply Fin.ext
  match a with
  | ⟨0, _⟩ => show win1_4.index t (0 : Fin 2) * 2000 + 1 * p.val = t.val * 2000 + p.val; omega
  | ⟨1, _⟩ => show win1_4.index t (1 : Fin 2) * 256 + 1 * q.val = q.val; omega

/-- The second input's block at point t, read at (p, q). -/
theorem blk1_1 (c : Dev nD) (t : Fin cfg1.N) (p : Fin 2000) (q : Fin 256) :
    (iblk1 V c 1 t : S2000x256.Idx → EReal) (ix2 p q) = (V c main_v17_1 : S50000x256.Idx → EReal) (ix2 (row1 t p) q) := by
  unfold iblk1
  exact congrArg (V c main_v17_1 : S50000x256.Idx → EReal) (emb1_1 t p q)

/-- The bias row's block at point t, read at (0, q). -/
theorem blk1_2 (c : Dev nD) (t : Fin cfg1.N) (q : Fin 256) :
    (iblk1 V c 2 t : S1x256.Idx → EReal) (ix2 (0 : Fin 1) q) = (V c main_v28 : S1x256.Idx → EReal) (ix2 (0 : Fin 1) q) := by
  unfold iblk1
  exact congrArg (V c main_v28 : S1x256.Idx → EReal) (emb1_2 t q)

/-- The row factors' block at point t, read at (p, 0). -/
theorem blk1_3 (c : Dev nD) (t : Fin cfg1.N) (p : Fin 2000) :
    (iblk1 V c 3 t : S2000x1.Idx → EReal) (ix2 p (0 : Fin 1)) = (V c main_v12 : S50000x1.Idx → EReal) (ix2 (row1 t p) (0 : Fin 1)) := by
  unfold iblk1
  exact congrArg (V c main_v12 : S50000x1.Idx → EReal) (emb1_3 t p)

/-- What point t writes back is block t of the whole-array function. -/
theorem flushed1_4_eq (c : Dev nD) (t : Fin cfg1.N) :
    (dat1 V c).flushed 4 t = ((cfg1.win 4).blk t).view.read (Elt Ideal)
      (finArr (V c main_v27 : S50000x256.Idx → EReal) (V c main_v17_1 : S50000x256.Idx → EReal)
        (V c main_v28 : S1x256.Idx → EReal) (V c main_v12 : S50000x1.Idx → EReal)) := by
  show (cfg1.win 4).cut (grid1.coords t) ((dat1 V c).after 4 t) = _
  rw [after1_4, out1_4_eq]
  refine funext fun (j : S2000x256.Idx) => ?_
  obtain ⟨p, q, rfl⟩ : ∃ (p : Fin 2000) (q : Fin 256), j = ix2 p q := ⟨j 0, j 1, eq_ix2 j⟩
  show k1_pay1 (F := Ideal) (iblk1 V c 0 t) (iblk1 V c 3 t) (iblk1 V c 1 t) (iblk1 V c 2 t) (ix2 p q)
    = finArr (V c main_v27 : S50000x256.Idx → EReal) (V c main_v17_1 : S50000x256.Idx → EReal)
        (V c main_v28 : S1x256.Idx → EReal) (V c main_v12 : S50000x1.Idx → EReal)
        (((cfg1.win 4).blk t).view.emb (ix2 p q))
  refine (Pay.pay1 _ _ _ _ p q).trans ?_
  rw [emb1_4 t p q, finArr_apply, blk1_0 V c t p q, blk1_1 V c t p q, blk1_2 V c t q, blk1_3 V c t p]

/-- An index of the array is in point t's block iff each coordinate is in the block's range on its axis. -/
theorem mem_blk1_4 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v29).slice (win1_4.rect t)).set ↔ _
  rw [View.set_slice_whole, Rect.mem_set_unit]
  exact Iff.rfl

/-- Every index of the array is in some point's block: row r is in the block of point r / 2000. -/
theorem covered1_4 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, e0, e1⟩ := idx_facts1 t
  refine ⟨t, flush1_4 t, ?_⟩
  rw [mem_blk1_4]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- The result array after the launch is the whole-array function of the arrays the launch found. -/
theorem final1_4 (c : Dev nD) : ((dat1 V c).arrAt 4 cfg1.N : S50000x256.Idx → EReal)
    = finArr (V c main_v27 : S50000x256.Idx → EReal) (V c main_v17_1 : S50000x256.Idx → EReal)
        (V c main_v28 : S1x256.Idx → EReal) (V c main_v12 : S50000x1.Idx → EReal) :=
  (dat1 V c).arrAt_eq_of_cover 4 _ (fun t _ => flushed1_4_eq V c t) covered1_4

/-! ## The second finishing launch: 128 columns -/

/-- The one store of the body fills the whole block, so the block after the body is the body's
    arithmetic of the four blocks it read. -/
theorem out3_4_eq (x0 : Vec Ideal S2000x128 .f32) (x1 : Vec Ideal S2000x128 .f32) (x2 : Vec Ideal S1x128 .f32)
    (x3 : Vec Ideal S2000x1 .f32) : out3_4 (F := Ideal) x0 x1 x2 x3 = k3_pay1 (F := Ideal) x0 x3 x1 x2 := by
  unfold out3_4
  rw [View.canon_unit_zero off_zero]
  simp only [View.ld_unit_zero (S := S2000x128) off_zero, View.ld_unit_zero (S := S2000x1) off_zero,
    View.ld_unit_zero (S := S1x128) off_zero]

/-- The block each window is on at point t: the three row-blocked inputs and the result at block row t,
    the bias row at its one block; every window at block column 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row p of block t is row t · 2000 + p of the array. -/
def row3 (t : Fin cfg3.N) (p : Fin 2000) : Fin 50000 :=
  ⟨t.val * 2000 + p.val, by have h := t.isLt; have hN : cfg3.N = 25 := N_3; have := p.isLt; omega⟩

/-- Entry (p, q) of point t's block of the first input is entry (t · 2000 + p, q) of its array. -/
theorem emb3_0 (t : Fin cfg3.N) (p : Fin 2000) (q : Fin 128) :
    ((cfg3.win 0).blk t).view.emb (ix2 p q) = (ix2 (row3 t p) q : S50000x128.Idx) := by
  obtain ⟨e0, e1, -⟩ := idx_facts3 t
  funext a; apply Fin.ext
  match a with
  | ⟨0, _⟩ => show win3_0.index t (0 : Fin 2) * 2000 + 1 * p.val = t.val * 2000 + p.val; omega
  | ⟨1, _⟩ => show win3_0.index t (1 : Fin 2) * 128 + 1 * q.val = q.val; omega

/-- The first input's block at point t, read at (p, q). -/
theorem blk3_0 (c : Dev nD) (t : Fin cfg3.N) (p : Fin 2000) (q : Fin 128) :
    (iblk3 V c 0 t : S2000x128.Idx → EReal) (ix2 p q) = (V c main_v44 : S50000x128.Idx → EReal) (ix2 (row3 t p) q) := by
  unfold iblk3
  exact congrArg (V c main_v44 : S50000x128.Idx → EReal) (emb3_0 t p q)

/-- The same for the second input. -/
theorem emb3_1 (t : Fin cfg3.N) (p : Fin 2000) (q : Fin 128) :
    ((cfg3.win 1).blk t).view.emb (ix2 p q) = (ix2 (row3 t p) q : S50000x128.Idx) := by
  obtain ⟨-, -, e0, e1, -⟩ := idx_facts3 t
  funext a; apply Fin.ext
  match a with
  | ⟨0, _⟩ => show win3_1.index t (0 : Fin 2) * 2000 + 1 * p.val = t.val * 2000 + p.val; omega
  | ⟨1, _⟩ => show win3_1.index t (1 : Fin 2) * 128 + 1 * q.val = q.val; omega

/-- The bias row's one block is the whole row. -/
theorem emb3_2 (t : Fin cfg3.N) (q : Fin 128) :
    ((cfg3.win 2).blk t).view.emb (ix2 (0 : Fin 1) q) = (ix2 (0 : Fin 1) q : S1x128.Idx) := by
  obtain ⟨-, -, -, -, e0, e1, -⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- Entry (p, 0) of point t's block of the column of row factors is entry (t · 2000 + p, 0) of the column. -/
theorem emb3_3 (t : Fin cfg3.N) (p : Fin 2000) :
    ((cfg3.win 3).blk t).view.emb (ix2 p (0 : Fin 1)) = (ix2 (row3 t p) (0 : Fin 1) : S50000x1.Idx) := by
  obtain ⟨-, -, -, -, -, -, e0, e1, -⟩ := idx_facts3 t
  funext a; apply Fin.ext
  match a with
  | ⟨0, _⟩ => show win3_3.index t (0 : Fin 2) * 2000 + 1 * p.val = t.val * 2000 + p.val; omega
  | ⟨1, _⟩ => show win3_3.index t (1 : Fin 2) * 1 + 1 * 0 = 0; omega

/-- Entry (p, q) of point t's block of the result is entry (t · 2000 + p, q) of the result array. -/
theorem emb3_4 (t : Fin cfg3.N) (p : Fin 2000) (q : Fin 128) :
    ((cfg3.win 4).blk t).view.emb (ix2 p q) = (ix2 (row3 t p) q : S50000x128.Idx) := by
  obtain ⟨-, -, -, -, -, -, -, -, e0, e1⟩ := idx_facts3 t
  funext a; apply Fin.ext
  match a with
  | ⟨0, _⟩ => show win3_4.index t (0 : Fin 2) * 2000 + 1 * p.val = t.val * 2000 + p.val; omega
  | ⟨1, _⟩ => show win3_4.index t (1 : Fin 2) * 128 + 1 * q.val = q.val; omega

/-- The second input's block at point t, read at (p, q). -/
theorem blk3_1 (c : Dev nD) (t : Fin cfg3.N) (p : Fin 2000) (q : Fin 128) :
    (iblk3 V c 1 t : S2000x128.Idx → EReal) (ix2 p q) = (V c main_v34_1 : S50000x128.Idx → EReal) (ix2 (row3 t p) q) := by
  unfold iblk3
  exact congrArg (V c main_v34_1 : S50000x128.Idx → EReal) (emb3_1 t p q)

/-- The bias row's block at point t, read at (0, q). -/
theorem blk3_2 (c : Dev nD) (t : Fin cfg3.N) (q : Fin 128) :
    (iblk3 V c 2 t : S1x128.Idx → EReal) (ix2 (0 : Fin 1) q) = (V c main_v45 : S1x128.Idx → EReal) (ix2 (0 : Fin 1) q) := by
  unfold iblk3
  exact congrArg (V c main_v45 : S1x128.Idx → EReal) (emb3_2 t q)

/-- The row factors' block at point t, read at (p, 0). -/
theorem blk3_3 (c : Dev nD) (t : Fin cfg3.N) (p : Fin 2000) :
    (iblk3 V c 3 t : S2000x1.Idx → EReal) (ix2 p (0 : Fin 1)) = (V c main_v12 : S50000x1.Idx → EReal) (ix2 (row3 t p) (0 : Fin 1)) := by
  unfold iblk3
  exact congrArg (V c main_v12 : S50000x1.Idx → EReal) (emb3_3 t p)

/-- What point t writes back is block t of the whole-array function. -/
theorem flushed3_4_eq (c : Dev nD) (t : Fin cfg3.N) :
    (dat3 V c).flushed 4 t = ((cfg3.win 4).blk t).view.read (Elt Ideal)
      (finArr (V c main_v44 : S50000x128.Idx → EReal) (V c main_v34_1 : S50000x128.Idx → EReal)
        (V c main_v45 : S1x128.Idx → EReal) (V c main_v12 : S50000x1.Idx → EReal)) := by
  show (cfg3.win 4).cut (grid3.coords t) ((dat3 V c).after 4 t) = _
  rw [after3_4, out3_4_eq]
  refine funext fun (j : S2000x128.Idx) => ?_
  obtain ⟨p, q, rfl⟩ : ∃ (p : Fin 2000) (q : Fin 128), j = ix2 p q := ⟨j 0, j 1, eq_ix2 j⟩
  show k3_pay1 (F := Ideal) (iblk3 V c 0 t) (iblk3 V c 3 t) (iblk3 V c 1 t) (iblk3 V c 2 t) (ix2 p q)
    = finArr (V c main_v44 : S50000x128.Idx → EReal) (V c main_v34_1 : S50000x128.Idx → EReal)
        (V c main_v45 : S1x128.Idx → EReal) (V c main_v12 : S50000x1.Idx → EReal)
        (((cfg3.win 4).blk t).view.emb (ix2 p q))
  refine (Pay.pay3 _ _ _ _ p q).trans ?_
  rw [emb3_4 t p q, finArr_apply, blk3_0 V c t p q, blk3_1 V c t p q, blk3_2 V c t q, blk3_3 V c t p]

/-- An index of the array is in point t's block iff each coordinate is in the block's range on its axis. -/
theorem mem_blk3_4 (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v46).slice (win3_4.rect t)).set ↔ _
  rw [View.set_slice_whole, Rect.mem_set_unit]
  exact Iff.rfl

/-- Every index of the array is in some point's block: row r is in the block of point r / 2000. -/
theorem covered3_4 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, -, -, -, -, e0, e1⟩ := idx_facts3 t
  refine ⟨t, flush3_4 t, ?_⟩
  rw [mem_blk3_4]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- The result array after the launch is the whole-array function of the arrays the launch found. -/
theorem final3_4 (c : Dev nD) : ((dat3 V c).arrAt 4 cfg3.N : S50000x128.Idx → EReal)
    = finArr (V c main_v44 : S50000x128.Idx → EReal) (V c main_v34_1 : S50000x128.Idx → EReal)
        (V c main_v45 : S1x128.Idx → EReal) (V c main_v12 : S50000x1.Idx → EReal) :=
  (dat3 V c).arrAt_eq_of_cover 4 _ (fun t _ => flushed3_4_eq V c t) covered3_4

end Cert.KernelIdeal.Hand

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.LibMeanAggLayer.lean ====
/-
  One graph-convolution layer with mean aggregation, written in two orders, and the law that joins them.

  Nodes i, input features k, output channels c, edges e. An edge e lands on node i when P i e holds, and brings the
  row s e of the node array. With A(i,k) the sum of X(s e, k) over the edges landing on i, and D(i) a nonzero real
  (the number of such edges, or one when there is none):
    the first order aggregates, divides by D, then projects:  max(Σ_k (A(i,k) / D i) · Wl(c,k) + b c + Σ_k X(i,k) · Wr(c,k), 0);
    the second projects every row first, aggregates the projected rows, then scales by 1 / D:
      max((Σ_{e on i} Σ_k X(s e,k) · Wl(c,k)) · (1 / D i) + Σ_k X(i,k) · Wr(c,k) + b c, 0).
  For real entries the two agree (a finite sum may be exchanged with a finite sum and a real scale moved across it),
  and the value is again real.
-/
import proofs.«162258_j81879256531434_2_alg».proof.Proof.LibRealSums

noncomputable section

open scoped BigOperators

namespace Cert.GraphLayer

open Cert.Math Idealize.ShloMosaic

variable {ι κ γ ε : Type} [Fintype κ] [Fintype ε]

/-- The sum, over the edges landing on node i, of entry (s e, k) of Y. -/
def agg {δ : Type} (P : ι → ε → Prop) [∀ i e, Decidable (P i e)] (s : ε → ι) (Y : ι → δ → EReal) (i : ι) (k : δ) : EReal :=
  ∑ e, if P i e then Y (s e) k else 0

/-- Row i of X against row c of W. -/
def proj (X : ι → κ → EReal) (W : γ → κ → EReal) (i : ι) (c : γ) : EReal := ∑ k, X i k * W c k

/-- Aggregate, divide by D, then project. -/
def refLayer (P : ι → ε → Prop) [∀ i e, Decidable (P i e)] (s : ε → ι) (D : ι → EReal) (X : ι → κ → EReal)
    (Wl Wr : γ → κ → EReal) (b : γ → EReal) (i : ι) (c : γ) : EReal :=
  max (((∑ k, Ideal.div (agg P s X i k) (D i) * Wl c k) + b c) + proj X Wr i c) 0

/-- Project, aggregate the projected rows, then scale by the reciprocal of D. -/
def kerLayer (P : ι → ε → Prop) [∀ i e, Decidable (P i e)] (s : ε → ι) (D : ι → EReal) (X : ι → κ → EReal)
    (Wl Wr : γ → κ → EReal) (b : γ → EReal) (i : ι) (c : γ) : EReal :=
  max (((agg P s (proj X Wl) i c * Ideal.div 1 (D i)) + proj X Wr i c) + b c) 0

variable (P : ι → ε → Prop) [∀ i e, Decidable (P i e)] (s : ε → ι) (D : ι → EReal) (X : ι → κ → EReal)
  (Wl Wr : γ → κ → EReal) (b : γ → EReal)

/-! ### Coercion of the pieces -/

/-- A conditional whose branches are a real and zero is the coercion of the real conditional. -/
theorem coe_ite_zero (p : Prop) [Decidable p] (a : ℝ) :
    (if p then (a : EReal) else 0) = ((if p then a else 0 : ℝ) : EReal) := by
  split_ifs
  · rfl
  · exact EReal.coe_zero.symm

/-- The larger of two reals, coerced, is the larger of the coercions: the coercion is monotone. -/
theorem coe_max_real (a b : ℝ) : max (a : EReal) (b : EReal) = ((max a b : ℝ) : EReal) :=
  (EReal.coe_strictMono.monotone.map_max).symm

/-- A row of reals against a row of reals is the coercion of the real sum of products. -/
theorem proj_coe (x : ι → κ → ℝ) (w : γ → κ → ℝ) (i : ι) (c : γ) :
    proj (fun i k => (x i k : EReal)) (fun c k => (w c k : EReal)) i c
      = ((∑ k, x i k * w c k : ℝ) : EReal) := by
  unfold proj
  rw [coe_sum]
  exact Finset.sum_congr rfl (fun k _ => (EReal.coe_mul _ _).symm)

/-- The second order, on real entries, is the coercion of one real expression. -/
theorem kerLayer_coe (x : ι → κ → ℝ) (wl wr : γ → κ → ℝ) (bb : γ → ℝ) (d : ι → ℝ) (hd : ∀ i, d i ≠ 0)
    (i : ι) (c : γ) :
    kerLayer P s (fun i => (d i : EReal)) (fun i k => (x i k : EReal)) (fun c k => (wl c k : EReal))
        (fun c k => (wr c k : EReal)) (fun c => (bb c : EReal)) i c
      = ((max (((∑ e, if P i e then ∑ k, x (s e) k * wl c k else 0) * (1 / d i)
            + ∑ k, x i k * wr c k) + bb c) 0 : ℝ) : EReal) := by
  unfold kerLayer agg
  have h1 : ∀ e ∈ (Finset.univ : Finset ε),
      (if P i e then proj (fun i k => (x i k : EReal)) (fun c k => (wl c k : EReal)) (s e) c else 0)
        = ((if P i e then ∑ k, x (s e) k * wl c k else 0 : ℝ) : EReal) := by
    intro e _; rw [proj_coe, coe_ite_zero]
  rw [Finset.sum_congr rfl h1, ← coe_sum, proj_coe, Ideal.div_coe (hd i), one_mul, ← EReal.coe_mul,
    ← EReal.coe_add, ← EReal.coe_add, ← EReal.coe_zero, coe_max_real]

/-- The first order, on real entries, is the coercion of one real expression. -/
theorem refLayer_coe (x : ι → κ → ℝ) (wl wr : γ → κ → ℝ) (bb : γ → ℝ) (d : ι → ℝ) (hd : ∀ i, d i ≠ 0)
    (i : ι) (c : γ) :
    refLayer P s (fun i => (d i : EReal)) (fun i k => (x i k : EReal)) (fun c k => (wl c k : EReal))
        (fun c k => (wr c k : EReal)) (fun c => (bb c : EReal)) i c
      = ((max (((∑ k, ((∑ e, if P i e then x (s e) k else 0) * (1 / d i)) * wl c k) + bb c)
            + ∑ k, x i k * wr c k) 0 : ℝ) : EReal) := by
  unfold refLayer agg
  have h1 : ∀ k ∈ (Finset.univ : Finset κ),
      Ideal.div (∑ e, if P i e then (x (s e) k : EReal) else 0) ((d i : ℝ) : EReal) * (wl c k : EReal)
        = ((((∑ e, if P i e then x (s e) k else 0) * (1 / d i)) * wl c k : ℝ) : EReal) := by
    intro k _
    rw [Ideal.div_coe (hd i), Finset.sum_congr rfl (fun e _ => coe_ite_zero (P i e) (x (s e) k)),
      ← coe_sum, ← EReal.coe_mul, ← EReal.coe_mul]
  rw [Finset.sum_congr rfl h1, ← coe_sum, proj_coe, ← EReal.coe_add, ← EReal.coe_add, ← EReal.coe_zero,
    coe_max_real]

/-! ### The exchange of the two sums, in the reals -/

/-- Scaling the aggregated entries and then projecting is projecting every row, aggregating, then scaling:
    the two finite sums are exchanged and the scale is moved across the inner one. -/
theorem sum_exchange (x : ι → κ → ℝ) (wl : γ → κ → ℝ) (r : ℝ) (i : ι) (c : γ) :
    ∑ k, ((∑ e, if P i e then x (s e) k else 0) * r) * wl c k
      = (∑ e, if P i e then ∑ k, x (s e) k * wl c k else 0) * r := by
  have h1 : ∀ k ∈ (Finset.univ : Finset κ),
      ((∑ e, if P i e then x (s e) k else 0) * r) * wl c k
        = ∑ e, (if P i e then x (s e) k else 0) * r * wl c k := by
    intro k _; rw [Finset.sum_mul, Finset.sum_mul]
  rw [Finset.sum_congr rfl h1, Finset.sum_comm, Finset.sum_mul]
  refine Finset.sum_congr rfl (fun e _ => ?_)
  split_ifs
  · rw [Finset.sum_mul]; exact Finset.sum_congr rfl (fun k _ => by ring)
  · simp

/-- The two real expressions agree. -/
theorem real_layer_eq (x : ι → κ → ℝ) (wl wr : γ → κ → ℝ) (bb : γ → ℝ) (r : ℝ) (i : ι) (c : γ) :
    ((∑ e, if P i e then ∑ k, x (s e) k * wl c k else 0) * r + ∑ k, x i k * wr c k) + bb c
      = ((∑ k, ((∑ e, if P i e then x (s e) k else 0) * r) * wl c k) + bb c) + ∑ k, x i k * wr c k := by
  rw [sum_exchange]; ring

/-! ### The law -/

/-- For real entries and nonzero real divisors the two orders give the same value. -/
theorem layer_eq (hX : ∀ i k, IsReal (X i k)) (hWl : ∀ c k, IsReal (Wl c k)) (hWr : ∀ c k, IsReal (Wr c k))
    (hb : ∀ c, IsReal (b c)) (hD : ∀ i, ∃ d : ℝ, d ≠ 0 ∧ D i = (d : EReal)) (i : ι) (c : γ) :
    kerLayer P s D X Wl Wr b i c = refLayer P s D X Wl Wr b i c := by
  choose x hx using hX
  choose wl hwl using hWl
  choose wr hwr using hWr
  choose bb hbb using hb
  choose d hd0 hd using hD
  obtain rfl : X = fun i k => (x i k : EReal) := funext fun i => funext fun k => hx i k
  obtain rfl : Wl = fun c k => (wl c k : EReal) := funext fun c => funext fun k => hwl c k
  obtain rfl : Wr = fun c k => (wr c k : EReal) := funext fun c => funext fun k => hwr c k
  obtain rfl : b = fun c => (bb c : EReal) := funext fun c => hbb c
  obtain rfl : D = fun i => (d i : EReal) := funext fun i => hd i
  rw [kerLayer_coe P s x wl wr bb d hd0 i c, refLayer_coe P s x wl wr bb d hd0 i c, real_layer_eq]

/-- For real entries and nonzero real divisors the layer's value is real. -/
theorem kerLayer_isReal (hX : ∀ i k, IsReal (X i k)) (hWl : ∀ c k, IsReal (Wl c k)) (hWr : ∀ c k, IsReal (Wr c k))
    (hb : ∀ c, IsReal (b c)) (hD : ∀ i, ∃ d : ℝ, d ≠ 0 ∧ D i = (d : EReal)) (i : ι) (c : γ) :
    IsReal (kerLayer P s D X Wl Wr b i c) := by
  choose x hx using hX
  choose wl hwl using hWl
  choose wr hwr using hWr
  choose bb hbb using hb
  choose d hd0 hd using hD
  obtain rfl : X = fun i k => (x i k : EReal) := funext fun i => funext fun k => hx i k
  obtain rfl : Wl = fun c k => (wl c k : EReal) := funext fun c => funext fun k => hwl c k
  obtain rfl : Wr = fun c k => (wr c k : EReal) := funext fun c => funext fun k => hwr c k
  obtain rfl : b = fun c => (bb c : EReal) := funext fun c => hbb c
  obtain rfl : D = fun i => (d i : EReal) := funext fun i => hd i
  rw [kerLayer_coe P s x wl wr bb d hd0 i c]
  exact isReal_coe _

end Cert.GraphLayer

end
-- ==== Proof.LibRowScatter.lean ====
/-
  The row scatter-add that a segment sum lowers to, on the extended reals, read at an element.

  The operand is an [R, C] array, the scatter indices an [E, 1] column of signed words, the updates an [E, C] array;
  update row e is added into operand row (index e), column by column, and is dropped when that row number is
  negative or not below R. So entry (r, k) of the result is the operand's entry plus the sum, over the update rows e
  whose index is r, of the update's entry (e, k):  out(r,k) = x(r,k) + Σ_e [idx e = r] · U(e,k).
  Two such scatters through the same indices agree at matching entries when their operands and the update columns do
  (`rowScatter_congr`), and a scatter of a constant real column into a zero column is real at every row
  (`rowScatter_count_real`). Generic in the extents; the dimension numbers are the literal ones of such a scatter.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Piecewise

noncomputable section

open scoped BigOperators

namespace Cert.SegmentSum

open Idealize.ShloMosaic Idealize.ShloMosaic.ValueIdx

variable {R C E w : ℕ}

/-- The dimension numbers of a row scatter: update axis 1 is the window, operand axis 0 is indexed. -/
abbrev rowDims (wf : ScatterDims.WF (⟨2, ![R, C]⟩ : Shape) (⟨2, ![E, 1]⟩ : Shape) (⟨2, ![E, C]⟩ : Shape) [1] [0] [0] 1) :
    ScatterDims (⟨2, ![R, C]⟩ : Shape) (⟨2, ![E, 1]⟩ : Shape) (⟨2, ![E, C]⟩ : Shape) :=
  ⟨[1], [0], [0], 1, wf⟩

variable (wf : ScatterDims.WF (⟨2, ![R, C]⟩ : Shape) (⟨2, ![E, 1]⟩ : Shape) (⟨2, ![E, C]⟩ : Shape) [1] [0] [0] 1)

theorem start_zero (j : (⟨2, ![E, C]⟩ : Shape).Idx) (idx : IVec (⟨2, ![E, 1]⟩ : Shape) w) :
    (rowDims wf).start j idx 0 = (idx (ix2 (j 0) (0 : Fin 1))).toInt := by
  unfold ScatterDims.start
  rw [dif_pos (show ((0 : Fin 2) ∈ ([0] : List (Fin 2))) by decide)]
  refine congrArg (fun q => (idx q).toInt) ?_
  funext b; apply Fin.ext
  match b with
  | ⟨0, _⟩ => rfl
  | ⟨1, _⟩ => rfl

theorem start_one (j : (⟨2, ![E, C]⟩ : Shape).Idx) (idx : IVec (⟨2, ![E, 1]⟩ : Shape) w) :
    (rowDims wf).start j idx 1 = 0 := by
  unfold ScatterDims.start
  rw [dif_neg (show ¬ ((1 : Fin 2) ∈ ([0] : List (Fin 2))) by decide)]

theorem window_zero (j : (⟨2, ![E, C]⟩ : Shape).Idx) : (rowDims wf).window j 0 = 0 := by
  have h0 : ¬ ((0 : Fin 2) ∈ (rowDims wf).sKept) := show ¬ ((0 : Fin 2) ∈ ([1] : List (Fin 2))) by decide
  unfold ScatterDims.window
  exact dif_neg h0

theorem window_one (j : (⟨2, ![E, C]⟩ : Shape).Idx) : (rowDims wf).window j 1 = (j 1).val := by
  have h1 : (1 : Fin 2) ∈ (rowDims wf).sKept := show ((1 : Fin 2) ∈ ([1] : List (Fin 2))) by decide
  unfold ScatterDims.window
  exact (dif_pos h1).trans rfl

/-- Update (e, c) lands on operand entry (r, k) exactly when row e's index, read signed, is r and c is k. -/
theorem resultIdx_iff (j : (⟨2, ![E, C]⟩ : Shape).Idx) (idx : IVec (⟨2, ![E, 1]⟩ : Shape) w) (r : Fin R) (k : Fin C) :
    (rowDims wf).resultIdx? j idx = some (ix2 r k)
      ↔ (idx (ix2 (j 0) (0 : Fin 1))).toInt = (r.val : ℤ) ∧ (j 1).val = k.val := by
  have hstart0 := start_zero wf j idx
  have hstart1 := start_one wf j idx
  have hwin0 := window_zero wf j
  have hwin1 := window_one wf j
  unfold ScatterDims.resultIdx?
  constructor
  · intro h
    split at h
    · rename_i hall
      have hf := Option.some.inj h
      have e0 : ((rowDims wf).start j idx 0 + ((rowDims wf).window j 0 : ℤ)).toNat = r.val :=
        congrArg (fun f => (f 0).val) hf
      have e1 : ((rowDims wf).start j idx 1 + ((rowDims wf).window j 1 : ℤ)).toNat = k.val :=
        congrArg (fun f => (f 1).val) hf
      have a0 := (hall 0).1
      rw [hstart0, hwin0] at e0 a0
      rw [hstart1, hwin1] at e1
      constructor <;> omega
    · exact absurd h (by simp)
  · rintro ⟨hT, hk⟩
    have hr := r.isLt
    have hkk := k.isLt
    split
    · refine congrArg some (funext fun a => Fin.ext ?_)
      match a with
      | ⟨0, _⟩ =>
        show ((rowDims wf).start j idx 0 + ((rowDims wf).window j 0 : ℤ)).toNat = r.val
        rw [hstart0, hwin0, hT]; omega
      | ⟨1, _⟩ =>
        show ((rowDims wf).start j idx 1 + ((rowDims wf).window j 1 : ℤ)).toNat = k.val
        rw [hstart1, hwin1]; omega
    · rename_i hall
      refine absurd (fun a => ?_) hall
      match a with
      | ⟨0, _⟩ =>
        show 0 ≤ (rowDims wf).start j idx 0 + ((rowDims wf).window j 0 : ℤ)
          ∧ (rowDims wf).start j idx 0 + ((rowDims wf).window j 0 : ℤ) < (R : ℤ)
        rw [hstart0, hwin0, hT]; omega
      | ⟨1, _⟩ =>
        show 0 ≤ (rowDims wf).start j idx 1 + ((rowDims wf).window j 1 : ℤ)
          ∧ (rowDims wf).start j idx 1 + ((rowDims wf).window j 1 : ℤ) < (C : ℤ)
        rw [hstart1, hwin1]; omega

/-- The segment sum of column k of the updates into row r: the rows whose index is r, added up. -/
def segSum (idx : IVec (⟨2, ![E, 1]⟩ : Shape) w) (U : (⟨2, ![E, C]⟩ : Shape).Idx → EReal) (r : ℕ) (k : Fin C) : EReal :=
  ∑ e : Fin E, if (idx (ix2 e (0 : Fin 1))).toInt = (r : ℤ) then U (ix2 e k) else 0

/-- A ROW SCATTER-ADD READ AT (r, k): the operand's entry plus the segment sum of the updates' column k into row r. -/
theorem rowScatter_apply (x : (⟨2, ![R, C]⟩ : Shape).Idx → EReal) (idx : IVec (⟨2, ![E, 1]⟩ : Shape) w)
    (U : (⟨2, ![E, C]⟩ : Shape).Idx → EReal) (r : Fin R) (k : Fin C) :
    (Host.scatterAdd (F := Ideal) (φ := .f32) (rowDims wf) x idx U : (⟨2, ![R, C]⟩ : Shape).Idx → EReal) (ix2 r k)
      = x (ix2 r k) + segSum idx U r.val k := by
  show Ideal.hostScatterAdd (rowDims wf) x idx U (ix2 r k) = _
  unfold Ideal.hostScatterAdd
  refine congrArg (x (ix2 r k) + ·) ?_
  rw [Finset.sum_filter, sum_idx2]
  unfold segSum
  refine Finset.sum_congr rfl fun e _ => ?_
  by_cases hT : (idx (ix2 e (0 : Fin 1))).toInt = (r.val : ℤ)
  · rw [if_pos hT, Finset.sum_eq_single k]
    · exact if_pos ((resultIdx_iff wf (ix2 e k) idx r k).mpr ⟨hT, rfl⟩)
    · intro c _ hc
      exact if_neg (fun h => hc (Fin.ext ((resultIdx_iff wf (ix2 e c) idx r k).mp h).2))
    · intro h
      exact absurd (Finset.mem_univ k) h
  · rw [if_neg hT]
    exact Finset.sum_eq_zero fun c _ => if_neg (fun h => hT ((resultIdx_iff wf (ix2 e c) idx r k).mp h).1)

/-- Two row scatter-adds through the same indices agree at entries (r, k') and (r, k) whenever their operands agree
    there and column k' of the one's updates is column k of the other's: a scatter of rows with a column joined on,
    read at a column of the original, is the scatter of the original rows. -/
theorem rowScatter_congr {C' : ℕ}
    (wf' : ScatterDims.WF (⟨2, ![R, C']⟩ : Shape) (⟨2, ![E, 1]⟩ : Shape) (⟨2, ![E, C']⟩ : Shape) [1] [0] [0] 1)
    (x' : (⟨2, ![R, C']⟩ : Shape).Idx → EReal) (x : (⟨2, ![R, C]⟩ : Shape).Idx → EReal)
    (idx : IVec (⟨2, ![E, 1]⟩ : Shape) w)
    (U' : (⟨2, ![E, C']⟩ : Shape).Idx → EReal) (U : (⟨2, ![E, C]⟩ : Shape).Idx → EReal)
    (r : Fin R) (k' : Fin C') (k : Fin C) (hx : x' (ix2 r k') = x (ix2 r k))
    (hU : ∀ e : Fin E, U' (ix2 e k') = U (ix2 e k)) :
    (Host.scatterAdd (F := Ideal) (φ := .f32) (rowDims wf') x' idx U' : (⟨2, ![R, C']⟩ : Shape).Idx → EReal) (ix2 r k')
      = (Host.scatterAdd (F := Ideal) (φ := .f32) (rowDims wf) x idx U : (⟨2, ![R, C]⟩ : Shape).Idx → EReal) (ix2 r k) := by
  rw [rowScatter_apply, rowScatter_apply, hx]
  unfold segSum
  simp only [hU]

/-- A row scatter-add of a column of one constant c into a zero column gives, at every row, a real number when c
    is: the count of the update rows landing there, times c. Stated for c the word of 1.0 and the operand zero. -/
theorem rowScatter_count_real
    (wf1 : ScatterDims.WF (⟨2, ![R, 1]⟩ : Shape) (⟨2, ![E, 1]⟩ : Shape) (⟨2, ![E, 1]⟩ : Shape) [1] [0] [0] 1)
    (x : (⟨2, ![R, 1]⟩ : Shape).Idx → EReal) (idx : IVec (⟨2, ![E, 1]⟩ : Shape) w)
    (U : (⟨2, ![E, 1]⟩ : Shape).Idx → EReal) (one : EReal) (hone : ∃ c : ℝ, one = (c : EReal))
    (hx : ∀ i, x i = 0) (hU : ∀ i, U i = one) (r : Fin R) :
    ∃ c : ℝ, (Host.scatterAdd (F := Ideal) (φ := .f32) (rowDims wf1) x idx U : (⟨2, ![R, 1]⟩ : Shape).Idx → EReal)
      (ix2 r (0 : Fin 1)) = (c : EReal) := by
  obtain ⟨c1, hc1⟩ := hone
  rw [rowScatter_apply, hx, zero_add]
  unfold segSum
  simp only [hU, hc1]
  classical
  induction (Finset.univ : Finset (Fin E)) using Finset.induction_on with
  | empty => exact ⟨0, by simp⟩
  | insert a t ha ih =>
    obtain ⟨c, hc⟩ := ih
    rw [Finset.sum_insert ha, hc]
    by_cases h : (idx (ix2 a (0 : Fin 1))).toInt = (r.val : ℤ)
    · exact ⟨c1 + c, by rw [if_pos h, ← EReal.coe_add]⟩
    · exact ⟨c, by rw [if_neg h, zero_add]⟩

end Cert.SegmentSum

end
-- ==== Proof.LibScatterSum.lean ====
/-
  The host's accumulating scatter at the ideal values, read at an element, for any shapes and dimension numbers:
  the operand's element plus the sum, over ALL updates, of the update when it lands on that element and of zero
  when it does not.
-/
import Idealize.ShloMosaic.PureOps.Ideal
import Idealize.ShloMosaic.PureOps.Ideal.Laws
import Mathlib.Algebra.BigOperators.Group.Finset.Piecewise

noncomputable section

open scoped BigOperators

namespace Cert.ScatterSum

open Idealize.ShloMosaic

/-- A sum over the updates that land on `i` is a sum over all updates of the update or zero. -/
theorem hostScatterAdd_apply {s si su : Shape} (d : ScatterDims s si su) {w : Nat} (x : s.Idx → EReal) (idx : IVec si w)
    (upd : su.Idx → EReal) (i : s.Idx) (g : su.Idx → EReal)
    (hg : ∀ j, (d.resultIdx? j idx = some i → g j = upd j) ∧ (d.resultIdx? j idx ≠ some i → g j = 0)) :
    (Host.scatterAdd (F := Ideal) (φ := .f32) d x idx upd : s.Idx → EReal) i = (x i : EReal) + ∑ j : su.Idx, g j := by
  show Ideal.hostScatterAdd d x idx upd i = _
  unfold Ideal.hostScatterAdd
  refine congrArg (x i + ·) ?_
  rw [Finset.sum_filter]
  refine Finset.sum_congr rfl fun j _ => ?_
  by_cases h : d.resultIdx? j idx = some i
  · rw [if_pos h, (hg j).1 h]
  · rw [if_neg h, (hg j).2 h]

end Cert.ScatterSum

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.KEntries.lean ====
/-
  The kernel program's host-side terms, read at an index.

  Between its launches the kernel program transposes the weight matrices (and narrows their format, which changes
  nothing on the extended reals), views the bias vectors as rows, forms the reciprocal of the number of edges
  landing on each node (or of one), and gathers the projected rows along the edges and adds them up per target
  node. Read at an index: the transposed matrix at (k, c) is the matrix at (c, k); the bias row at (0, c) is the
  bias at c; the reciprocal column at (i, 0) is one over the divisor of node i; the gathered and added array at
  (i, c) is the sum, over the edges landing on i, of entry c of the source node's row. The divisor of a node is a
  real number and is not zero: it is the larger of one and a finite sum of ones and zeros.
-/
import proofs.«162258_j81879256531434_2_alg».proof.KernelIdeal
import proofs.«162258_j81879256531434_2_alg».proof.Proof.Gen.KernelIdeal
import proofs.«162258_j81879256531434_2_alg».proof.Proof.Shared
import proofs.«162258_j81879256531434_2_alg».proof.Proof.LibMeanAggLayer
import proofs.«162258_j81879256531434_2_alg».proof.Proof.LibGatherRows
import proofs.«162258_j81879256531434_2_alg».proof.Proof.LibRowScatter
import proofs.«162258_j81879256531434_2_alg».proof.Proof.LibScatterSum
import proofs.«162258_j81879256531434_2_alg».proof.Proof.LibRealSums
import proofs.«162258_j81879256531434_2_alg».proof.Proof.LibKeepdims
import Idealize.ShloMosaic.Lib.Pipeline.Value
import Idealize.ShloMosaic.Lib.ValueIdx
import Idealize.ShloMosaic.Lib.IdealHost

noncomputable section

open scoped BigOperators

namespace Cert.KernelIdeal.Entries

open Cert.KernelIdeal Cert.KernelIdeal.Gen Cert.Shared Cert.GraphLayer Cert.Math Idealize.ShloMosaic
  Idealize.ShloMosaic.ValueIdx

/-! ### The transposed weights -/

/-- The first layer's transposed matrix at (k, c) is the matrix at (c, k). -/
theorem wT1 (a : S256x1024.Idx → EReal) (k : Fin 1024) (c : Fin 256) :
    (truncf (F := Ideal) (φ := .f32) .bf16 (transpose S1024x256 [1, 0] a transposes_S256x1024_S1024x256_1_0)
      bitsLt_bf16_f32 : S1024x256.Idx → EReal) (ix2 k c) = a (ix2 c k) :=
  transpose_apply [1, 0] a transposes_S256x1024_S1024x256_1_0 (ix2 k c) (ix2 c k)
    (fun b => match b with | ⟨0, _⟩ => rfl | ⟨1, _⟩ => rfl)

/-- The second layer's transposed matrix at (k, c) is the matrix at (c, k). -/
theorem wT2 (a : S128x256.Idx → EReal) (k : Fin 256) (c : Fin 128) :
    (truncf (F := Ideal) (φ := .f32) .bf16 (transpose S256x128 [1, 0] a transposes_S128x256_S256x128_1_0)
      bitsLt_bf16_f32 : S256x128.Idx → EReal) (ix2 k c) = a (ix2 c k) :=
  transpose_apply [1, 0] a transposes_S128x256_S256x128_1_0 (ix2 k c) (ix2 c k)
    (fun b => match b with | ⟨0, _⟩ => rfl | ⟨1, _⟩ => rfl)

/-! ### The projected rows, gathered along the edges and added up per target node -/

/-- The first layer's aggregate of the projected rows at (i, c). -/
theorem aggK1 (y : S50000x256.Idx → EReal) (a1 : (⟨Cert.ReferenceIdeal.S2x250000, .i32⟩ : BufTy).Contents (Elt Ideal)) (i : Fin 50000) (c : Fin 256) :
    (Host.scatterAdd (F := Ideal) (φ := .f32) scatter_S50000x256_S250000x1_S250000x256_1_0_0_1
        (Cert.ReferenceIdeal.Read.val_main_v39 (F := Ideal)) (Cert.ReferenceIdeal.Read.val_main_v12 (F := Ideal) a1)
        (Host.gather gather_S50000x256_S250000x1_S250000x256_1_0_n_n_0_1_1256 y (Cert.ReferenceIdeal.Read.val_main_v9 (F := Ideal) a1))
      : S50000x256.Idx → EReal) (ix2 i c)
      = agg (hit a1) (sRow a1) (fun j c' => y (ix2 j c')) i c := by
  refine (Cert.SegmentSum.rowScatter_apply (R := 50000) (C := 256) (E := 250000) (w := 32)
    scatter_S50000x256_S250000x1_S250000x256_1_0_0_1_wf (Cert.ReferenceIdeal.Read.val_main_v39 (F := Ideal))
    (Cert.ReferenceIdeal.Read.val_main_v12 (F := Ideal) a1)
    (Host.gather gather_S50000x256_S250000x1_S250000x256_1_0_n_n_0_1_1256 y (Cert.ReferenceIdeal.Read.val_main_v9 (F := Ideal) a1))
    i c).trans ?_
  have hz : (Cert.ReferenceIdeal.Read.val_main_v39 (F := Ideal) (ix2 i c) : EReal) = 0 := by
    rw [Cert.ReferenceIdeal.Read.val_main_v39_apply, Cert.ReferenceIdeal.Read.val_main_cst_6_apply, Ideal.ofBits_def, Ideal.ofBits_zero_f32]
  rw [hz, zero_add]
  unfold Cert.SegmentSum.segSum agg
  refine Finset.sum_congr rfl fun e _ => ?_
  have hg : (Host.gather gather_S50000x256_S250000x1_S250000x256_1_0_n_n_0_1_1256 y
      (Cert.ReferenceIdeal.Read.val_main_v9 (F := Ideal) a1) : S250000x256.Idx → EReal) (ix2 e c) = y (ix2 (sRow a1 e) c) :=
    GatherRows.gather_rows_apply (N := 50000) (C := 256) (R := 250000) (w := 32) (by norm_num)
      gather_S50000x256_S250000x1_S250000x256_1_0_n_n_0_1_1256_wf y (Cert.ReferenceIdeal.Read.val_main_v9 (F := Ideal) a1) e c
  by_cases h : hit a1 i e
  · exact ((if_pos h).trans hg).trans (if_pos h).symm
  · exact (if_neg h).trans (if_neg h).symm

/-- The second layer's aggregate of the projected rows at (i, c). -/
theorem aggK2 (y : S50000x128.Idx → EReal) (a1 : (⟨Cert.ReferenceIdeal.S2x250000, .i32⟩ : BufTy).Contents (Elt Ideal)) (i : Fin 50000) (c : Fin 128) :
    (Host.scatterAdd (F := Ideal) (φ := .f32) scatter_S50000x128_S250000x1_S250000x128_1_0_0_1
        (broadcastInDim S50000x128 ![] bcast_S_S50000x128 (constant (F := Ideal) S_ .f32 0x00000000#32))
        (Cert.ReferenceIdeal.Read.val_main_v12 (F := Ideal) a1)
        (Host.gather gather_S50000x128_S250000x1_S250000x128_1_0_n_n_0_1_1128 y (Cert.ReferenceIdeal.Read.val_main_v9 (F := Ideal) a1))
      : S50000x128.Idx → EReal) (ix2 i c)
      = agg (hit a1) (sRow a1) (fun j c' => y (ix2 j c')) i c := by
  refine (Cert.SegmentSum.rowScatter_apply (R := 50000) (C := 128) (E := 250000) (w := 32)
    scatter_S50000x128_S250000x1_S250000x128_1_0_0_1_wf
    (broadcastInDim S50000x128 ![] bcast_S_S50000x128 (constant (F := Ideal) S_ .f32 0x00000000#32))
    (Cert.ReferenceIdeal.Read.val_main_v12 (F := Ideal) a1)
    (Host.gather gather_S50000x128_S250000x1_S250000x128_1_0_n_n_0_1_1128 y (Cert.ReferenceIdeal.Read.val_main_v9 (F := Ideal) a1))
    i c).trans ?_
  have hz : (broadcastInDim S50000x128 ![] bcast_S_S50000x128 (constant (F := Ideal) S_ .f32 0x00000000#32)
      : S50000x128.Idx → EReal) (ix2 i c) = 0 := Ideal.ofBits_zero_f32
  rw [hz, zero_add]
  unfold Cert.SegmentSum.segSum agg
  refine Finset.sum_congr rfl fun e _ => ?_
  have hg : (Host.gather gather_S50000x128_S250000x1_S250000x128_1_0_n_n_0_1_1128 y
      (Cert.ReferenceIdeal.Read.val_main_v9 (F := Ideal) a1) : S250000x128.Idx → EReal) (ix2 e c) = y (ix2 (sRow a1 e) c) :=
    GatherRows.gather_rows_apply (N := 50000) (C := 128) (R := 250000) (w := 32) (by norm_num)
      gather_S50000x128_S250000x1_S250000x128_1_0_n_n_0_1_1128_wf y (Cert.ReferenceIdeal.Read.val_main_v9 (F := Ideal) a1) e c
  by_cases h : hit a1 i e
  · exact ((if_pos h).trans hg).trans (if_pos h).symm
  · exact (if_neg h).trans (if_neg h).symm

/-! ### The reciprocal of the divisor -/

/-- The f32 word with sign 0, exponent 127 and zero fraction is the real one. -/
theorem one_f32 : Ideal.ofBits .f32 0x3F800000#32 = 1 := by
  simp [Ideal.ofBits, Ideal.ieee]
  rw [← EReal.coe_mul, ← EReal.coe_one]
  exact congrArg _ (by norm_num)

/-- The reciprocal column at (i, u) is one over the divisor of node i. -/
theorem degr_at (a1 : (⟨Cert.ReferenceIdeal.S2x250000, .i32⟩ : BufTy).Contents (Elt Ideal)) (i : Fin 50000) (u : Fin 1) :
    (shapeCast S50000x1 (Host.divf (broadcastInDim S50000 ![] bcast_S_S50000 (constant (F := Ideal) S_ .f32 0x3F800000#32))
        (Cert.ReferenceIdeal.Read.val_main_v19 (F := Ideal) a1)) shapeCasts_S50000_S50000x1 : S50000x1.Idx → EReal) (ix2 i u)
      = Ideal.div 1 (Dg a1 i) := by
  refine (Cert.MemAttn.Layout.shapeCast_a_a1_apply (a := 50000)
    (Host.divf (broadcastInDim S50000 ![] bcast_S_S50000 (constant (F := Ideal) S_ .f32 0x3F800000#32))
      (Cert.ReferenceIdeal.Read.val_main_v19 (F := Ideal) a1)) shapeCasts_S50000_S50000x1 i u).trans ?_
  rw [hostDivf_apply, broadcastInDim_scalar_apply, constant_apply, one_f32]
  rfl

/-! ### The bias rows -/

/-- An [a] array viewed as the row [1, a] reads, at (u, p), the operand at p, whatever the unit coordinate. -/
theorem shapeCast_a_1a_apply {α : Type} {a : ℕ} (x : (⟨1, ![a]⟩ : Shape).Idx → α)
    (h : (⟨1, ![a]⟩ : Shape).ShapeCasts ⟨2, ![1, a]⟩) (u : Fin 1) (p : Fin a) :
    shapeCast ⟨2, ![1, a]⟩ x h (ix2 u p) = x (ix1 p) :=
  shapeCast_apply x h _ _ (by
    have hu : u.val = 0 := by omega
    rw [Shape.rowMajor_val_two, Shape.rowMajor_val_one]
    show p.val = u.val * a + p.val
    rw [hu, Nat.zero_mul, Nat.zero_add])

/-- The first layer's bias row at (u, c) is the bias at c. -/
theorem bias1 (a4 : S256.Idx → EReal) (u : Fin 1) (c : Fin 256) :
    (shapeCast S1x256 a4 shapeCasts_S256_S1x256 : S1x256.Idx → EReal) (ix2 u c) = a4 (ix1 c) :=
  shapeCast_a_1a_apply (a := 256) a4 shapeCasts_S256_S1x256 u c

/-- The second layer's bias row at (u, c) is the bias at c. -/
theorem bias2 (a7 : S128.Idx → EReal) (u : Fin 1) (c : Fin 128) :
    (shapeCast S1x128 a7 shapeCasts_S128_S1x128 : S1x128.Idx → EReal) (ix2 u c) = a7 (ix1 c) :=
  shapeCast_a_1a_apply (a := 128) a7 shapeCasts_S128_S1x128 u c

/-! ### The divisor is a nonzero real -/

/-- The number of edges landing on node i is real: zero plus a finite sum of ones and zeros. -/
theorem deg_isReal (a1 : (⟨Cert.ReferenceIdeal.S2x250000, .i32⟩ : BufTy).Contents (Elt Ideal)) (i : Fin 50000) :
    IsReal ((Cert.ReferenceIdeal.Read.val_main_v17 (F := Ideal) a1 : (⟨1, ![50000]⟩ : Shape).Idx → EReal) (ix1 i)) := by
  classical
  have h := Cert.ScatterSum.hostScatterAdd_apply Cert.ReferenceIdeal.scatter_S50000_S250000x1_S250000_n_0_0_1
    (Cert.ReferenceIdeal.Read.val_main_v15 (F := Ideal)) (Cert.ReferenceIdeal.Read.val_main_v16 (F := Ideal) a1) (Cert.ReferenceIdeal.Read.val_main_v14 (F := Ideal)) (ix1 i)
    (fun j => if Cert.ReferenceIdeal.scatter_S50000_S250000x1_S250000_n_0_0_1.resultIdx? j
        (Cert.ReferenceIdeal.Read.val_main_v16 (F := Ideal) a1) = some (ix1 i) then (Cert.ReferenceIdeal.Read.val_main_v14 (F := Ideal) j : EReal) else 0)
    (fun j => ⟨fun hj => if_pos hj, fun hj => if_neg hj⟩)
  have h' : (Cert.ReferenceIdeal.Read.val_main_v17 (F := Ideal) a1 : (⟨1, ![50000]⟩ : Shape).Idx → EReal) (ix1 i) = _ := h
  rw [h']
  refine IsReal.add ?_ (IsReal.sum _ _ fun j _ => ?_)
  · rw [Cert.ReferenceIdeal.Read.val_main_v15_apply, Cert.ReferenceIdeal.Read.val_main_cst_2_apply, Ideal.ofBits_def, Ideal.ofBits_zero_f32]
    exact isReal_zero
  · split_ifs
    · rw [Cert.ReferenceIdeal.Read.val_main_v14_apply, Cert.ReferenceIdeal.Read.val_main_cst_1_apply, Ideal.ofBits_def, one_f32]
      exact ⟨1, EReal.coe_one.symm⟩
    · exact isReal_zero

/-- The divisor of node i is a real number and is not zero: the larger of the number of edges landing on i and one. -/
theorem Dg_real (a1 : (⟨Cert.ReferenceIdeal.S2x250000, .i32⟩ : BufTy).Contents (Elt Ideal)) (i : Fin 50000) : ∃ d : ℝ, d ≠ 0 ∧ Dg a1 i = (d : EReal) := by
  obtain ⟨r, hr⟩ := deg_isReal a1 i
  refine ⟨max r 1, ne_of_gt (lt_of_lt_of_le one_pos (le_max_right r 1)), ?_⟩
  unfold Cert.Shared.Dg
  rw [Cert.ReferenceIdeal.Read.val_main_v19_apply, Ideal.maximumf_def, Cert.ReferenceIdeal.Read.val_main_v18_apply, Cert.ReferenceIdeal.Read.val_main_cst_3_apply,
    Ideal.ofBits_def, one_f32, hr, ← EReal.coe_one, coe_max_real]

end Cert.KernelIdeal.Entries

end
-- ==== Proof.RefLayers.lean ====
/-
  The reference's two layer outputs, read at an index.

  Each layer of the reference gathers, for every edge e, the row of its source node; adds the gathered rows into the
  rows of their target nodes, starting from zero; divides row i by the number of edges landing on i (or by one);
  multiplies by the transposed left matrix, adds the bias, adds the node array times the transposed right matrix,
  and takes the larger of the result and zero. Read at entry (i, c) that is
    max(Σ_k ((Σ_{e on i} X(s e, k)) / D i) · Wl(c,k) + b c + Σ_k X(i,k) · Wr(c,k), 0),
  the first order of the layer algebra, with X the input features in the first layer and the first layer's output
  in the second. The second layer's index arrays and divisor are computed a second time by the same operations, so
  they are the first layer's.
-/
import proofs.«162258_j81879256531434_2_alg».proof.Proof.Shared
import proofs.«162258_j81879256531434_2_alg».proof.Proof.LibRowScatter
import proofs.«162258_j81879256531434_2_alg».proof.Proof.LibMeanAggLayer

noncomputable section

open scoped BigOperators

namespace Cert.RefLayers

open Cert.ReferenceIdeal Cert.ReferenceIdeal.Read Cert.Shared Cert.GraphLayer Idealize.ShloMosaic
  Idealize.ShloMosaic.ValueIdx

variable (x0 : (⟨S50000x1024, .f32⟩ : BufTy).Contents (Elt Ideal)) (x1 : (⟨S2x250000, .i32⟩ : BufTy).Contents (Elt Ideal))
  (x3 : (⟨S256x1024, .f32⟩ : BufTy).Contents (Elt Ideal)) (x4 : (⟨S256, .f32⟩ : BufTy).Contents (Elt Ideal))
  (x5 : (⟨S256x1024, .f32⟩ : BufTy).Contents (Elt Ideal)) (x6 : (⟨S128x256, .f32⟩ : BufTy).Contents (Elt Ideal))
  (x7 : (⟨S128, .f32⟩ : BufTy).Contents (Elt Ideal)) (x8 : (⟨S128x256, .f32⟩ : BufTy).Contents (Elt Ideal))

/-! ### The first layer, stage by stage -/

/-- Row e of the gathered array is the row of edge e's source node. -/
theorem v10_at (e : Fin 250000) (k : Fin 1024) :
    (val_main_v10 (F := Ideal) x0 x1 (ix2 e k) : EReal) = x0 (ix2 (sRow x1 e) k) :=
  GatherRows.gather_rows_apply (N := 50000) (C := 1024) (R := 250000) (w := 32) (by norm_num)
    Facts₀.gather_S50000x1024_S250000x1_S250000x1024_1_0_n_n_0_1_11024_wf x0 (val_main_v9 (F := Ideal) x1) e k

/-- The array the rows are added into is zero. -/
theorem v11_at (j : S50000x1024.Idx) : (val_main_v11 (F := Ideal) j : EReal) = 0 := by
  rw [val_main_v11_apply, val_main_cst_apply, Ideal.ofBits_def, Ideal.ofBits_zero_f32]

/-- Entry (i, k) of the aggregated array: the sum of entry k of the source rows of the edges landing on i. -/
theorem v13_at (i : Fin 50000) (k : Fin 1024) :
    (val_main_v13 (F := Ideal) x0 x1 (ix2 i k) : EReal)
      = ∑ e : Fin 250000, if hit x1 i e then (x0 (ix2 (sRow x1 e) k) : EReal) else 0 := by
  refine (SegmentSum.rowScatter_apply (R := 50000) (C := 1024) (E := 250000) (w := 32)
    Facts₀.scatter_S50000x1024_S250000x1_S250000x1024_1_0_0_1_wf (val_main_v11 (F := Ideal))
    (val_main_v12 (F := Ideal) x1) (val_main_v10 (F := Ideal) x0 x1) i k).trans ?_
  rw [v11_at, zero_add]
  unfold SegmentSum.segSum
  refine Finset.sum_congr rfl fun e _ => ?_
  by_cases h : hit x1 i e
  · exact ((if_pos h).trans (v10_at x0 x1 e k)).trans (if_pos h).symm
  · exact (if_neg h).trans (if_neg h).symm

/-- The divisor of entry (i, k) is the divisor of node i. -/
theorem v21_at (i : Fin 50000) (k : Fin 1024) : (val_main_v21 (F := Ideal) x1 (ix2 i k) : EReal) = Dg x1 i := by
  rw [val_main_v21_apply, val_main_v20_apply]
  have e : idx_main_v20 (idx_main_v21 (ix2 i k)) = ix1 i := funext fun a => Fin.ext (by match a with | ⟨0, _⟩ => rfl)
  rw [e]; rfl

/-- Entry (i, k) of the mean: the aggregated entry over the divisor of node i. -/
theorem v22_at (i : Fin 50000) (k : Fin 1024) :
    (val_main_v22 (F := Ideal) x0 x1 (ix2 i k) : EReal)
      = Ideal.div (∑ e : Fin 250000, if hit x1 i e then (x0 (ix2 (sRow x1 e) k) : EReal) else 0) (Dg x1 i) := by
  rw [val_main_v22_apply, Ideal.hostDivf_def, v13_at, v21_at]

/-- The mean against the left matrix: row i of the mean against row c of the matrix. -/
theorem v24_at (i : Fin 50000) (c : Fin 256) :
    (val_main_v24 (F := Ideal) x0 x1 x3 (ix2 i c) : EReal)
      = ∑ k : Fin 1024, (val_main_v22 (F := Ideal) x0 x1 (ix2 i k) : EReal) * (x3 (ix2 c k) : EReal) := by
  rw [val_main_v24_apply]
  refine Finset.sum_congr rfl fun k _ => ?_
  have el : lidx_main_v24 (ix2 i c) k = ix2 i k := funext fun a => Fin.ext (by match a with | ⟨0, _⟩ => rfl | ⟨1, _⟩ => rfl)
  have er : idx_main_v23 (ridx_main_v24 (ix2 i c) k) = ix2 c k := funext fun a => Fin.ext (by match a with | ⟨0, _⟩ => rfl | ⟨1, _⟩ => rfl)
  rw [el, val_main_v23_apply, er]

/-- The bias of entry (i, c) is the bias of channel c. -/
theorem v26_at (i : Fin 50000) (c : Fin 256) : (val_main_v26 (F := Ideal) x4 (ix2 i c) : EReal) = x4 (ix1 c) := by
  rw [val_main_v26_apply, val_main_v25_apply]
  have e : idx_main_v25 (idx_main_v26 (ix2 i c)) = ix1 c := funext fun a => Fin.ext (by match a with | ⟨0, _⟩ => rfl)
  rw [e]

/-- The node array against the right matrix: row i against row c. -/
theorem v29_at (i : Fin 50000) (c : Fin 256) :
    (val_main_v29 (F := Ideal) x0 x5 (ix2 i c) : EReal)
      = ∑ k : Fin 1024, (x0 (ix2 i k) : EReal) * (x5 (ix2 c k) : EReal) := by
  rw [val_main_v29_apply]
  refine Finset.sum_congr rfl fun k _ => ?_
  have el : lidx_main_v29 (ix2 i c) k = ix2 i k := funext fun a => Fin.ext (by match a with | ⟨0, _⟩ => rfl | ⟨1, _⟩ => rfl)
  have er : idx_main_v28 (ridx_main_v29 (ix2 i c) k) = ix2 c k := funext fun a => Fin.ext (by match a with | ⟨0, _⟩ => rfl | ⟨1, _⟩ => rfl)
  rw [el, val_main_v28_apply, er]

/-- The array the first layer's sum is compared with is zero. -/
theorem relu0_at (j : S50000x256.Idx) : (val_main_call0_v0 (F := Ideal) j : EReal) = 0 := by
  rw [val_main_call0_v0_apply, val_main_call0_cst_apply, Ideal.ofBits_def, Ideal.ofBits_zero_f32]

/-- THE FIRST LAYER AT (i, c): the first order of the layer algebra on the input features. -/
theorem ref_h1 (i : Fin 50000) (c : Fin 256) :
    val_main_v31 (F := Ideal) x0 x1 x3 x4 x5 (ix2 i c)
      = refLayer (ι := Fin 50000) (κ := Fin 1024) (γ := Fin 256) (ε := Fin 250000) (hit x1) (sRow x1) (Dg x1)
          (fun i k => x0 (ix2 i k)) (fun c k => x3 (ix2 c k)) (fun c k => x5 (ix2 c k)) (fun c => x4 (ix1 c)) i c := by
  rw [val_main_v31_apply, val_main_v30_apply, val_main_v27_apply, v24_at, v26_at, v29_at, relu0_at,
    Ideal.maximumf_def, Ideal.addf_def, Ideal.addf_def]
  unfold refLayer agg proj
  simp only [v22_at]

/-! ### The second layer, stage by stage

  The second layer computes its own copies of the source indices, the target indices and the divisor, by the same
  operations on the same edge list: they are the first layer's. -/

/-- The second layer's source indices are the first layer's. -/
theorem v37_eq : val_main_v37 (F := Ideal) x1 = val_main_v9 (F := Ideal) x1 := rfl

/-- The second layer's target indices are the first layer's. -/
theorem v40_eq : val_main_v40 (F := Ideal) x1 = val_main_v12 (F := Ideal) x1 := rfl

/-- The second layer's divisor is the first layer's. -/
theorem v47_eq : val_main_v47 (F := Ideal) x1 = val_main_v19 (F := Ideal) x1 := rfl

/-- Row e of the gathered array is the row of edge e's source node in the first layer's output. -/
theorem v38_at (e : Fin 250000) (k : Fin 256) :
    (val_main_v38 (F := Ideal) x0 x1 x3 x4 x5 (ix2 e k) : EReal)
      = val_main_v31 (F := Ideal) x0 x1 x3 x4 x5 (ix2 (sRow x1 e) k) := by
  have h := GatherRows.gather_rows_apply (N := 50000) (C := 256) (R := 250000) (w := 32) (by norm_num)
    Facts₀.gather_S50000x256_S250000x1_S250000x256_1_0_n_n_0_1_1256_wf (val_main_v31 (F := Ideal) x0 x1 x3 x4 x5)
    (val_main_v37 (F := Ideal) x1) e k
  rw [v37_eq] at h
  exact h

/-- The array the rows are added into is zero. -/
theorem v39_at (j : S50000x256.Idx) : (val_main_v39 (F := Ideal) j : EReal) = 0 := by
  rw [val_main_v39_apply, val_main_cst_6_apply, Ideal.ofBits_def, Ideal.ofBits_zero_f32]

/-- Entry (i, k) of the aggregated array: the sum of entry k of the source rows of the edges landing on i. -/
theorem v41_at (i : Fin 50000) (k : Fin 256) :
    (val_main_v41 (F := Ideal) x0 x1 x3 x4 x5 (ix2 i k) : EReal)
      = ∑ e : Fin 250000, if hit x1 i e
          then (val_main_v31 (F := Ideal) x0 x1 x3 x4 x5 (ix2 (sRow x1 e) k) : EReal) else 0 := by
  have h := SegmentSum.rowScatter_apply (R := 50000) (C := 256) (E := 250000) (w := 32)
    Facts₀.scatter_S50000x256_S250000x1_S250000x256_1_0_0_1_wf (val_main_v39 (F := Ideal))
    (val_main_v40 (F := Ideal) x1) (val_main_v38 (F := Ideal) x0 x1 x3 x4 x5) i k
  rw [v40_eq] at h
  refine h.trans ?_
  rw [v39_at, zero_add]
  unfold SegmentSum.segSum
  refine Finset.sum_congr rfl fun e _ => ?_
  by_cases h : hit x1 i e
  · exact ((if_pos h).trans (v38_at x0 x1 x3 x4 x5 e k)).trans (if_pos h).symm
  · exact (if_neg h).trans (if_neg h).symm

/-- The divisor of entry (i, k) is the divisor of node i. -/
theorem v49_at (i : Fin 50000) (k : Fin 256) : (val_main_v49 (F := Ideal) x1 (ix2 i k) : EReal) = Dg x1 i := by
  rw [val_main_v49_apply, val_main_v48_apply, v47_eq]
  have e : idx_main_v48 (idx_main_v49 (ix2 i k)) = ix1 i := funext fun a => Fin.ext (by match a with | ⟨0, _⟩ => rfl)
  rw [e]; rfl

/-- Entry (i, k) of the mean: the aggregated entry over the divisor of node i. -/
theorem v50_at (i : Fin 50000) (k : Fin 256) :
    (val_main_v50 (F := Ideal) x0 x1 x3 x4 x5 (ix2 i k) : EReal)
      = Ideal.div (∑ e : Fin 250000, if hit x1 i e
          then (val_main_v31 (F := Ideal) x0 x1 x3 x4 x5 (ix2 (sRow x1 e) k) : EReal) else 0) (Dg x1 i) := by
  rw [val_main_v50_apply, Ideal.hostDivf_def, v41_at, v49_at]

/-- The mean against the left matrix: row i of the mean against row c of the matrix. -/
theorem v52_at (i : Fin 50000) (c : Fin 128) :
    (val_main_v52 (F := Ideal) x0 x1 x3 x4 x5 x6 (ix2 i c) : EReal)
      = ∑ k : Fin 256, (val_main_v50 (F := Ideal) x0 x1 x3 x4 x5 (ix2 i k) : EReal) * (x6 (ix2 c k) : EReal) := by
  rw [val_main_v52_apply]
  refine Finset.sum_congr rfl fun k _ => ?_
  have el : lidx_main_v52 (ix2 i c) k = ix2 i k := funext fun a => Fin.ext (by match a with | ⟨0, _⟩ => rfl | ⟨1, _⟩ => rfl)
  have er : idx_main_v51 (ridx_main_v52 (ix2 i c) k) = ix2 c k := funext fun a => Fin.ext (by match a with | ⟨0, _⟩ => rfl | ⟨1, _⟩ => rfl)
  rw [el, val_main_v51_apply, er]

/-- The bias of entry (i, c) is the bias of channel c. -/
theorem v54_at (i : Fin 50000) (c : Fin 128) : (val_main_v54 (F := Ideal) x7 (ix2 i c) : EReal) = x7 (ix1 c) := by
  rw [val_main_v54_apply, val_main_v53_apply]
  have e : idx_main_v53 (idx_main_v54 (ix2 i c)) = ix1 c := funext fun a => Fin.ext (by match a with | ⟨0, _⟩ => rfl)
  rw [e]

/-- The first layer's output against the right matrix: row i against row c. -/
theorem v57_at (i : Fin 50000) (c : Fin 128) :
    (val_main_v57 (F := Ideal) x0 x1 x3 x4 x5 x8 (ix2 i c) : EReal)
      = ∑ k : Fin 256, (val_main_v31 (F := Ideal) x0 x1 x3 x4 x5 (ix2 i k) : EReal) * (x8 (ix2 c k) : EReal) := by
  rw [val_main_v57_apply]
  refine Finset.sum_congr rfl fun k _ => ?_
  have el : lidx_main_v57 (ix2 i c) k = ix2 i k := funext fun a => Fin.ext (by match a with | ⟨0, _⟩ => rfl | ⟨1, _⟩ => rfl)
  have er : idx_main_v56 (ridx_main_v57 (ix2 i c) k) = ix2 c k := funext fun a => Fin.ext (by match a with | ⟨0, _⟩ => rfl | ⟨1, _⟩ => rfl)
  rw [el, val_main_v56_apply, er]

/-- The array the second layer's sum is compared with is zero. -/
theorem relu1_at (j : S50000x128.Idx) : (val_main_call1_v0 (F := Ideal) j : EReal) = 0 := by
  rw [val_main_call1_v0_apply, val_main_call1_cst_apply, Ideal.ofBits_def, Ideal.ofBits_zero_f32]

/-- THE SECOND LAYER AT (i, c): the first order of the layer algebra on the first layer's output. -/
theorem ref_h2 (i : Fin 50000) (c : Fin 128) :
    val_main_v59 (F := Ideal) x0 x1 x3 x4 x5 x6 x7 x8 (ix2 i c)
      = refLayer (ι := Fin 50000) (κ := Fin 256) (γ := Fin 128) (ε := Fin 250000) (hit x1) (sRow x1) (Dg x1)
          (fun i k => val_main_v31 (F := Ideal) x0 x1 x3 x4 x5 (ix2 i k)) (fun c k => x6 (ix2 c k))
          (fun c k => x8 (ix2 c k)) (fun c => x7 (ix1 c)) i c := by
  rw [val_main_v59_apply, val_main_v58_apply, val_main_v55_apply, v52_at, v54_at, v57_at, relu1_at,
    Ideal.maximumf_def, Ideal.addf_def, Ideal.addf_def]
  unfold refLayer agg proj
  simp only [v50_at]

end Cert.RefLayers

end
-- ==== Proof.Finite.lean ====
/-
  The precondition makes every float input entry a real number.

  The predicate is a conjunction, one conjunct per float input array x: the conjunction over all indices j of
  the comparison |x j| < +∞, where |x| is max x (−x) on the extended reals and +∞ is written as the f32 word
  0x7F800000. A conjunction of one-bit words that is 1 has every word 1, so each comparison holds at each index,
  and an extended real whose absolute value is below +∞ is neither +∞ nor −∞: it is a real number.
-/
import proofs.«162258_j81879256531434_2_alg».proof.Pre_finite_inputs
import proofs.«162258_j81879256531434_2_alg».proof.Proof.LibRealSums
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx
open Cert.Pre_finite_inputs Cert.Math

/-- The scalar shape has one index. -/
instance : Subsingleton S_.Idx := ⟨fun a b => funext fun d => d.elim0⟩

/-- A one-bit comparison word that is 1 says the compared relation holds: here x < y. -/
theorem lt_of_cmp_olt {x y : EReal} (h : Ideal.cmp .olt x y = 1#1) : x < y := by
  unfold Ideal.cmp at h
  by_contra hn
  simp [hn] at h

/-- One conjunct of the predicate: if the conjunction over all indices of |x j| < +∞ is 1, every x j is real. -/
theorem all_real {S : Shape} {axes : List (Fin S.rank)} (hb : S_.BroadcastsInDim S (![] : Fin 0 → Fin S.rank))
    (hr : S.ReducesTo axes S_) (hu : 0 < S_.numel) (x : FVec Ideal S .f32)
    (e : Host.reduce IntOp.andi
          (cmpf .olt (Host.absf x) (broadcastInDim S ![] hb (constant (F := Ideal) S_ .f32 0x7F800000#32)))
          (constantI S_ 1 1#1) hr hu ix0 = 1#1) :
    ∀ j, IsReal (x j) := by
  intro j
  have h1 := Host.reduce_andi_all _ _ hr hu ix0 e j
  rw [cmpf_apply, broadcastInDim_scalar_apply, constant_apply, ofBits_inf] at h1
  exact isReal_of_abs_lt_top (lt_of_cmp_olt h1)

/-- The precondition, read back: every entry of every float input array is a real number. -/
theorem inputs_real [Cert.Pre_finite_inputs.Facts]
    (x0 : FVec Ideal S50000x1024 .f32) (x1 : IVec S2x250000 32) (x2 : IVec S50000 32)
    (x3 : FVec Ideal S256x1024 .f32) (x4 : FVec Ideal S256 .f32) (x5 : FVec Ideal S256x1024 .f32)
    (x6 : FVec Ideal S128x256 .f32) (x7 : FVec Ideal S128 .f32) (x8 : FVec Ideal S128x256 .f32)
    (x9 : FVec Ideal S16x128 .f32) (x10 : FVec Ideal S16 .f32)
    (h : Cert.Pre_finite_inputs.fn (F := Ideal) x0 x1 x2 x3 x4 x5 x6 x7 x8 x9 x10 = fun _ => 1#1) :
    (∀ j, IsReal (x0 j)) ∧ (∀ j, IsReal (x3 j)) ∧ (∀ j, IsReal (x4 j)) ∧ (∀ j, IsReal (x5 j))
      ∧ (∀ j, IsReal (x6 j)) ∧ (∀ j, IsReal (x7 j)) ∧ (∀ j, IsReal (x8 j)) ∧ (∀ j, IsReal (x9 j))
      ∧ (∀ j, IsReal (x10 j)) := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e3⟩, e4⟩, e5⟩, e6⟩, e7⟩, e8⟩, e9⟩, e10⟩ := e
  exact ⟨all_real _ _ _ x0 e0, all_real _ _ _ x3 e3, all_real _ _ _ x4 e4, all_real _ _ _ x5 e5,
    all_real _ _ _ x6 e6, all_real _ _ _ x7 e7, all_real _ _ _ x8 e8, all_real _ _ _ x9 e9,
    all_real _ _ _ x10 e10⟩

end Cert.Finite

end
-- ==== Proof.KValue.lean ====
/-
  The kernel program's result, read back through its segments.

  After the first launch the two projected arrays are the node features times the two first-layer weights. The host
  then gathers the left projection along the edges and adds the rows up per target node; the second launch scales that
  sum by the reciprocal of the degree, adds the right projection and the bias, and clamps at zero: entry (i, c) of its
  result is the kernel-order layer (kerLayer) of the node features. The third and fourth launches and the host stretch
  between them do the same to that result with the second layer's weights. The last stretch is the pooling head.
  For finite inputs the kernel-order layer is the reference-order layer, entry by entry (every entry is real, so the
  sums may be exchanged and the scale moved), and the reference's layers are the reference-order ones; so the result is
  the head of the reference's second layer.
-/
import proofs.«162258_j81879256531434_2_alg».proof.Proof.KHost
import proofs.«162258_j81879256531434_2_alg».proof.Proof.KProj
import proofs.«162258_j81879256531434_2_alg».proof.Proof.KFinal
import proofs.«162258_j81879256531434_2_alg».proof.Proof.KEntries
import proofs.«162258_j81879256531434_2_alg».proof.Proof.RefLayers
import proofs.«162258_j81879256531434_2_alg».proof.Proof.Shared
import proofs.«162258_j81879256531434_2_alg».proof.Proof.Finite

set_option maxRecDepth 16384

noncomputable section

open scoped BigOperators

namespace Cert.KernelIdeal.Hand

open Cert.KernelIdeal Cert.KernelIdeal.Gen Cert.Shared Cert.GraphLayer Cert.Math Cert.KernelIdeal.Entries
open Idealize.ShloMosaic Idealize.ShloMosaic.TcCoe Idealize.ShloMosaic.ValueIdx Idealize.SL.Sem

variable (m : (ℓ : Loc nD τ sig) → Buf (Elt Ideal) ℓ) (ρ : Dev nD → PrngReg)

/-! ### The first layer -/

/-- The left projection after the first launch: node features against the left weight. -/
theorem W2_v17_0_at (c : Dev nD) (i : Fin 50000) (q : Fin 256) :
    (W2 m ρ c (Proc.devRef .tc main_v17_0) : S50000x256.Idx → EReal) (ix2 i q)
      = proj (fun i k => ((m ((c.tc : Thread nD τ).loc main_arg0)) : S50000x1024.Idx → EReal) (ix2 i k))
          (fun c' k => ((m ((c.tc : Thread nD τ).loc main_arg3)) : S256x1024.Idx → EReal) (ix2 c' k)) i q := by
  have e : (W2 m ρ c (Proc.devRef .tc main_v17_0) : S50000x256.Idx → EReal)
      = matArr (V1 m ρ c main_arg0 : S50000x1024.Idx → EReal) (V1 m ρ c main_v14 : S1024x256.Idx → EReal) :=
    (W2_arr m ρ c 3).trans (final0_3 (V1 m ρ) c)
  rw [e, matArr_apply]
  unfold proj
  show @Eq EReal _ _
  refine Finset.sum_congr rfl fun k _ => ?_
  rw [show (V1 m ρ c main_arg0 : S50000x1024.Idx → EReal) = (m ((c.tc : Thread nD τ).loc main_arg0)) from W1_of m ρ c main_arg0 (by decide),
    show (V1 m ρ c main_v14 : S1024x256.Idx → EReal) = _ from W1_v14 m ρ c, wT1]

/-- The right projection after the first launch: node features against the right weight. -/
theorem W2_v17_1_at (c : Dev nD) (i : Fin 50000) (q : Fin 256) :
    (W2 m ρ c (Proc.devRef .tc main_v17_1) : S50000x256.Idx → EReal) (ix2 i q)
      = proj (fun i k => ((m ((c.tc : Thread nD τ).loc main_arg0)) : S50000x1024.Idx → EReal) (ix2 i k))
          (fun c' k => ((m ((c.tc : Thread nD τ).loc main_arg5)) : S256x1024.Idx → EReal) (ix2 c' k)) i q := by
  have e : (W2 m ρ c (Proc.devRef .tc main_v17_1) : S50000x256.Idx → EReal)
      = matArr (V1 m ρ c main_arg0 : S50000x1024.Idx → EReal) (V1 m ρ c main_v16 : S1024x256.Idx → EReal) :=
    (W2_arr m ρ c 4).trans (final0_4 (V1 m ρ) c)
  rw [e, matArr_apply]
  unfold proj
  show @Eq EReal _ _
  refine Finset.sum_congr rfl fun k _ => ?_
  rw [show (V1 m ρ c main_arg0 : S50000x1024.Idx → EReal) = (m ((c.tc : Thread nD τ).loc main_arg0)) from W1_of m ρ c main_arg0 (by decide),
    show (V1 m ρ c main_v16 : S1024x256.Idx → EReal) = _ from W1_v16 m ρ c, wT1]

/-- The first layer's output after the second launch, entry by entry: the kernel-order layer of the node features. -/
theorem W4_v29_at (c : Dev nD) (i : Fin 50000) (q : Fin 256) :
    (W4 m ρ c (Proc.devRef .tc main_v29) : S50000x256.Idx → EReal) (ix2 i q)
      = kerLayer (hit (m ((c.tc : Thread nD τ).loc main_arg1))) (sRow (m ((c.tc : Thread nD τ).loc main_arg1))) (Dg (m ((c.tc : Thread nD τ).loc main_arg1)))
          (fun i k => ((m ((c.tc : Thread nD τ).loc main_arg0)) : S50000x1024.Idx → EReal) (ix2 i k))
          (fun c' k => ((m ((c.tc : Thread nD τ).loc main_arg3)) : S256x1024.Idx → EReal) (ix2 c' k))
          (fun c' k => ((m ((c.tc : Thread nD τ).loc main_arg5)) : S256x1024.Idx → EReal) (ix2 c' k))
          (fun c' => ((m ((c.tc : Thread nD τ).loc main_arg4)) : S256.Idx → EReal) (ix1 c')) i q := by
  have e : (W4 m ρ c (Proc.devRef .tc main_v29) : S50000x256.Idx → EReal)
      = finArr (V3 m ρ c main_v27 : S50000x256.Idx → EReal) (V3 m ρ c main_v17_1 : S50000x256.Idx → EReal)
          (V3 m ρ c main_v28 : S1x256.Idx → EReal) (V3 m ρ c main_v12 : S50000x1.Idx → EReal) :=
    (W4_arr m ρ c 4).trans (final1_4 (V3 m ρ) c)
  rw [e, finArr_apply]
  rw [show (V3 m ρ c main_v27 : S50000x256.Idx → EReal) = _ from W3_v27 m ρ c, aggK1,
    show (V3 m ρ c main_v12 : S50000x1.Idx → EReal) = _ from (W3_v12 m ρ c).trans (W1_v12 m ρ c), degr_at,
    show (V3 m ρ c main_v17_1 : S50000x256.Idx → EReal) = _ from W3_v17_1 m ρ c, W2_v17_1_at,
    show (V3 m ρ c main_v28 : S1x256.Idx → EReal) = _ from W3_v28 m ρ c, bias1]
  unfold kerLayer
  rw [show (fun j c' => (W2 m ρ c (Proc.devRef .tc main_v17_0) : S50000x256.Idx → EReal) (ix2 j c'))
      = proj (fun i k => ((m ((c.tc : Thread nD τ).loc main_arg0)) : S50000x1024.Idx → EReal) (ix2 i k))
          (fun c' k => ((m ((c.tc : Thread nD τ).loc main_arg3)) : S256x1024.Idx → EReal) (ix2 c' k))
    from funext fun j => funext fun c' => W2_v17_0_at m ρ c j c']

/-! ### The second layer -/

/-- The left projection after the third launch: the first layer's output against the second layer's left weight. -/
theorem W6_v34_0_at (c : Dev nD) (i : Fin 50000) (q : Fin 128) :
    (W6 m ρ c (Proc.devRef .tc main_v34_0) : S50000x128.Idx → EReal) (ix2 i q)
      = proj (fun i k => (W4 m ρ c (Proc.devRef .tc main_v29) : S50000x256.Idx → EReal) (ix2 i k))
          (fun c' k => ((m ((c.tc : Thread nD τ).loc main_arg6)) : S128x256.Idx → EReal) (ix2 c' k)) i q := by
  have e : (W6 m ρ c (Proc.devRef .tc main_v34_0) : S50000x128.Idx → EReal)
      = matArr (V5 m ρ c main_v29 : S50000x256.Idx → EReal) (V5 m ρ c main_v31 : S256x128.Idx → EReal) :=
    (W6_arr m ρ c 3).trans (final2_3 (V5 m ρ) c)
  rw [e, matArr_apply]
  unfold proj
  show @Eq EReal _ _
  refine Finset.sum_congr rfl fun k _ => ?_
  rw [show (V5 m ρ c main_v29 : S50000x256.Idx → EReal) = _ from W5_v29 m ρ c,
    show (V5 m ρ c main_v31 : S256x128.Idx → EReal) = _ from W5_v31 m ρ c, wT2]

/-- The right projection after the third launch. -/
theorem W6_v34_1_at (c : Dev nD) (i : Fin 50000) (q : Fin 128) :
    (W6 m ρ c (Proc.devRef .tc main_v34_1) : S50000x128.Idx → EReal) (ix2 i q)
      = proj (fun i k => (W4 m ρ c (Proc.devRef .tc main_v29) : S50000x256.Idx → EReal) (ix2 i k))
          (fun c' k => ((m ((c.tc : Thread nD τ).loc main_arg8)) : S128x256.Idx → EReal) (ix2 c' k)) i q := by
  have e : (W6 m ρ c (Proc.devRef .tc main_v34_1) : S50000x128.Idx → EReal)
      = matArr (V5 m ρ c main_v29 : S50000x256.Idx → EReal) (V5 m ρ c main_v33 : S256x128.Idx → EReal) :=
    (W6_arr m ρ c 4).trans (final2_4 (V5 m ρ) c)
  rw [e, matArr_apply]
  unfold proj
  show @Eq EReal _ _
  refine Finset.sum_congr rfl fun k _ => ?_
  rw [show (V5 m ρ c main_v29 : S50000x256.Idx → EReal) = _ from W5_v29 m ρ c,
    show (V5 m ρ c main_v33 : S256x128.Idx → EReal) = _ from W5_v33 m ρ c, wT2]

/-- The second layer's output after the fourth launch: the kernel-order layer of the first layer's output. -/
theorem W8_v46_at (c : Dev nD) (i : Fin 50000) (q : Fin 128) :
    (W8 m ρ c (Proc.devRef .tc main_v46) : S50000x128.Idx → EReal) (ix2 i q)
      = kerLayer (hit (m ((c.tc : Thread nD τ).loc main_arg1))) (sRow (m ((c.tc : Thread nD τ).loc main_arg1))) (Dg (m ((c.tc : Thread nD τ).loc main_arg1)))
          (fun i k => (W4 m ρ c (Proc.devRef .tc main_v29) : S50000x256.Idx → EReal) (ix2 i k))
          (fun c' k => ((m ((c.tc : Thread nD τ).loc main_arg6)) : S128x256.Idx → EReal) (ix2 c' k))
          (fun c' k => ((m ((c.tc : Thread nD τ).loc main_arg8)) : S128x256.Idx → EReal) (ix2 c' k))
          (fun c' => ((m ((c.tc : Thread nD τ).loc main_arg7)) : S128.Idx → EReal) (ix1 c')) i q := by
  have e : (W8 m ρ c (Proc.devRef .tc main_v46) : S50000x128.Idx → EReal)
      = finArr (V7 m ρ c main_v44 : S50000x128.Idx → EReal) (V7 m ρ c main_v34_1 : S50000x128.Idx → EReal)
          (V7 m ρ c main_v45 : S1x128.Idx → EReal) (V7 m ρ c main_v12 : S50000x1.Idx → EReal) :=
    (W8_arr m ρ c 4).trans (final3_4 (V7 m ρ) c)
  rw [e, finArr_apply]
  rw [show (V7 m ρ c main_v44 : S50000x128.Idx → EReal) = _ from W7_v44 m ρ c, aggK2,
    show (V7 m ρ c main_v12 : S50000x1.Idx → EReal) = _ from (W7_v12 m ρ c).trans (W1_v12 m ρ c), degr_at,
    show (V7 m ρ c main_v34_1 : S50000x128.Idx → EReal) = _ from W7_v34_1 m ρ c, W6_v34_1_at,
    show (V7 m ρ c main_v45 : S1x128.Idx → EReal) = _ from W7_v45 m ρ c, bias2]
  unfold kerLayer
  rw [show (fun j c' => (W6 m ρ c (Proc.devRef .tc main_v34_0) : S50000x128.Idx → EReal) (ix2 j c'))
      = proj (fun i k => (W4 m ρ c (Proc.devRef .tc main_v29) : S50000x256.Idx → EReal) (ix2 i k))
          (fun c' k => ((m ((c.tc : Thread nD τ).loc main_arg6)) : S128x256.Idx → EReal) (ix2 c' k))
    from funext fun j => funext fun c' => W6_v34_0_at m ρ c j c']

/-! ### Against the reference's layers -/

/-- For finite inputs the second launch's result is the reference's first layer, and the fourth's its second. -/
theorem layers_eq [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = (fun _ => 1#1)) :
    (W8 m ρ c (Proc.devRef .tc main_v46) : S50000x128.Idx → EReal)
      = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨r0, r3, r4, r5, r6, r7, r8, -, -⟩ := Cert.Finite.inputs_real _ _ _ _ _ _ _ _ _ _ _ hpre
  have hD := Dg_real (m ((c.tc : Thread nD τ).loc main_arg1))
  -- the first layer, entry by entry
  have h1 : ∀ (i : Fin 50000) (k : Fin 256),
      (W4 m ρ c (Proc.devRef .tc main_v29) : S50000x256.Idx → EReal) (ix2 i k)
        = Cert.ReferenceIdeal.Read.val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 i k) := by
    intro i k
    rw [W4_v29_at, Cert.RefLayers.ref_h1]
    exact layer_eq _ _ _ _ _ _ _ (fun i k => r0 _) (fun c' k => r3 _) (fun c' k => r5 _) (fun c' => r4 _) hD i k
  have h1real : ∀ (i : Fin 50000) (k : Fin 256),
      IsReal ((W4 m ρ c (Proc.devRef .tc main_v29) : S50000x256.Idx → EReal) (ix2 i k)) := by
    intro i k
    rw [W4_v29_at]
    exact kerLayer_isReal _ _ _ _ _ _ _ (fun i k => r0 _) (fun c' k => r3 _) (fun c' k => r5 _) (fun c' => r4 _) hD i k
  funext j
  obtain ⟨i, q, rfl⟩ : ∃ (i : Fin 50000) (q : Fin 128), j = ix2 i q := ⟨j 0, j 1, eq_ix2 j⟩
  rw [W8_v46_at, Cert.RefLayers.ref_h2,
    layer_eq _ _ _ _ _ _ _ h1real (fun c' k => r6 _) (fun c' k => r8 _) (fun c' => r7 _) hD i q]
  exact congrArg (fun X => refLayer _ _ _ X _ _ _ i q) (funext fun i' => funext fun k => h1 i' k)

/-- The kernel program's result is the pooling head of the reference's second layer. -/
theorem kernel_value [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = (fun _ => 1#1)) :
    (W9 m ρ c (Proc.devRef .tc main_v63) : S64x16.Idx → EReal)
      = Cert.Shared.tailT (F := Ideal)
          (Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg2)) (m ((c.tc : Thread nD τ).loc main_arg9)) (m ((c.tc : Thread nD τ).loc main_arg10)) := by
  rw [W9_v63 m ρ c, layers_eq m ρ c hpre]

end Cert.KernelIdeal.Hand

end
-- ==== Proof.lean ====
/-
  The certificate: the kernel program and the reference compute the same graph classifier.

  Both programs run two graph-convolution layers with mean aggregation and a pooling head. The reference aggregates
  the neighbours' rows, divides by the degree and then multiplies by the left weight; the kernel multiplies every row by
  the left weight first (a launch), aggregates the projected rows on the host, and scales by the reciprocal of the
  degree inside a second launch that also adds the right projection and the bias and clamps at zero. For finite
  inputs every entry is a real number, and on the reals the two orders agree: a finite sum over edges commutes with
  the finite sum of the product, and the scale 1/degree moves across both. The pooling head is the same operations
  in both programs. The frames of the two kernel programs are the generated ones; the reference's frame is its
  generated run with the result dropped; the idealization rewrote nothing.
-/
import proofs.«162258_j81879256531434_2_alg».proof.Defs
import proofs.«162258_j81879256531434_2_alg».proof.Proof.Gen.Kernel
import proofs.«162258_j81879256531434_2_alg».proof.Proof.Gen.Kernel.Frame
import proofs.«162258_j81879256531434_2_alg».proof.Proof.Gen.KernelIdeal
import proofs.«162258_j81879256531434_2_alg».proof.Proof.Gen.KernelIdeal.Frame
import proofs.«162258_j81879256531434_2_alg».proof.Proof.Gen.ReferenceIdeal
import proofs.«162258_j81879256531434_2_alg».proof.Proof.Gen.ReferenceIdeal.Run
import proofs.«162258_j81879256531434_2_alg».proof.Proof.Gen.ReferenceIdeal.Read
import proofs.«162258_j81879256531434_2_alg».proof.Proof.Gen.Pre_finite_inputs
import proofs.«162258_j81879256531434_2_alg».proof.Proof.KRun
import proofs.«162258_j81879256531434_2_alg».proof.Proof.KValue
import proofs.«162258_j81879256531434_2_alg».proof.Proof.Shared

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the pooling head of the second layer's output, computed from the same arguments. -/
theorem algebraic : Cert.algebraic_KernelIdeal_ReferenceIdeal := by
  intro m ρ m' ρ' hpre hagree
  refine ⟨fun c => Cert.Shared.tailT (F := Ideal)
      (Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.kernel_value m ρ c (hpre c)), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v76_eq, Cert.Shared.ref_tail]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
